-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3x128 : Shape := ⟨3, ![20000, 3, 128]⟩
abbrev S400000x20 : Shape := ⟨2, ![400000, 20]⟩
abbrev S400000 : Shape := ⟨1, ![400000]⟩
abbrev S400000x3 : Shape := ⟨2, ![400000, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S20x384 : Shape := ⟨2, ![20, 384]⟩
abbrev S2x400000 : Shape := ⟨2, ![2, 400000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3x128 : S_.BroadcastsInDim S20000x3x128 (![] : Fin 0 → Fin S20000x3x128.rank)
  reducesTo_S20000x3x128_S_d0_1_2 : S20000x3x128.ReducesTo [0, 1, 2] S_
  bcast_S_S400000x20 : S_.BroadcastsInDim S400000x20 (![] : Fin 0 → Fin S400000x20.rank)
  reducesTo_S400000x20_S_d0_1 : S400000x20.ReducesTo [0, 1] S_
  bcast_S_S400000 : S_.BroadcastsInDim S400000 (![] : Fin 0 → Fin S400000.rank)
  reducesTo_S400000_S_d0 : S400000.ReducesTo [0] S_
  bcast_S_S400000x3 : S_.BroadcastsInDim S400000x3 (![] : Fin 0 → Fin S400000x3.rank)
  reducesTo_S400000x3_S_d0_1 : S400000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S20x384 : S_.BroadcastsInDim S20x384 (![] : Fin 0 → Fin S20x384.rank)
  reducesTo_S20x384_S_d0_1 : S20x384.ReducesTo [0, 1] S_

variable [Facts]

def fn_part3 {F : FTy → Type} [FloatOps F] (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  main_v53

def fn_part2 {F : FTy → Type} [FloatOps F] (main_arg7 : FVec F S128x384 .f32) (main_arg8 : FVec F S384 .f32) (main_arg9 : FVec F S20x384 .f32) (main_arg10 : FVec F S384 .f32) (main_v33 : IVec S_ 1) : IVec S_ 1 :=
  let main_v34 : FVec F S128x384 .f32 := Host.absf main_arg7
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S20x384 .f32 := Host.absf main_arg9
  let main_cst_16 : FVec F S_ .f32 := constant S_ .f32 0x7F800000#32
  let main_v45 : FVec F S20x384 .f32 := broadcastInDim S20x384 ![] bcast_S_S20x384 main_cst_16
  let main_v46 : IVec S20x384 1 := cmpf .olt main_v44 main_v45
  let main_c_17 : IVec S_ 1 := constantI S_ 1 1#1
  let main_v47 : IVec S_ 1 := (fun x v => Host.reduce IntOp.andi x v reducesTo_S20x384_S_d0_1 h_S_) main_v46 main_c_17
  let main_v48 : IVec S_ 1 := andi main_v43 main_v47
  let main_v49 : FVec F S384 .f32 := Host.absf main_arg10
  let main_cst_18 : FVec F S_ .f32 := constant S_ .f32 0x7F800000#32
  let main_v50 : FVec F S384 .f32 := broadcastInDim S384 ![] bcast_S_S384 main_cst_18
  fn_part3 (F := F) main_v48 main_v49 main_v50

def fn_part1 {F : FTy → Type} [FloatOps F] (main_arg4 : FVec F S400000x3 .f32) (main_arg5 : FVec F S128x128 .f32) (main_arg6 : FVec F S128 .f32) (main_arg7 : FVec F S128x384 .f32) (main_arg8 : FVec F S384 .f32) (main_arg9 : FVec F S20x384 .f32) (main_arg10 : FVec F S384 .f32) (main_v13 : IVec S_ 1) (main_v16 : IVec S400000 1) : IVec S_ 1 :=
  let main_c_5 : IVec S_ 1 := constantI S_ 1 1#1
  let main_v17 : IVec S_ 1 := (fun x v => Host.reduce IntOp.andi x v reducesTo_S400000_S_d0 h_S_) main_v16 main_c_5
  let main_v18 : IVec S_ 1 := andi main_v13 main_v17
  let main_v19 : FVec F S400000x3 .f32 := Host.absf main_arg4
  let main_cst_6 : FVec F S_ .f32 := constant S_ .f32 0x7F800000#32
  let main_v20 : FVec F S400000x3 .f32 := broadcastInDim S400000x3 ![] bcast_S_S400000x3 main_cst_6
  let main_v21 : IVec S400000x3 1 := cmpf .olt main_v19 main_v20
  let main_c_7 : IVec S_ 1 := constantI S_ 1 1#1
  let main_v22 : IVec S_ 1 := (fun x v => Host.reduce IntOp.andi x v reducesTo_S400000x3_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S20000x128 .f32) (main_arg1 : FVec F S20000x3x128 .f32) (main_arg2 : FVec F S400000x20 .f32) (main_arg3 : FVec F S400000 .f32) (main_arg4 : FVec F S400000x3 .f32) (main_arg5 : FVec F S128x128 .f32) (main_arg6 : FVec F S128 .f32) (main_arg7 : FVec F S128x384 .f32) (main_arg8 : FVec F S384 .f32) (main_arg9 : FVec F S20x384 .f32) (main_arg10 : FVec F S384 .f32) (main_arg11 : IVec S2x400000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3x128 .f32 := Host.absf main_arg1
  let main_cst_0 : FVec F S_ .f32 := constant S_ .f32 0x7F800000#32
  let main_v5 : FVec F S20000x3x128 .f32 := broadcastInDim S20000x3x128 ![] bcast_S_S20000x3x128 main_cst_0
  let main_v6 : IVec S20000x3x128 1 := cmpf .olt main_v4 main_v5
  let main_c_1 : IVec S_ 1 := constantI S_ 1 1#1
  let main_v7 : IVec S_ 1 := (fun x v => Host.reduce IntOp.andi x v reducesTo_S20000x3x128_S_d0_1_2 h_S_) main_v6 main_c_1
  let main_v8 : IVec S_ 1 := andi main_v3 main_v7
  let main_v9 : FVec F S400000x20 .f32 := Host.absf main_arg2
  let main_cst_2 : FVec F S_ .f32 := constant S_ .f32 0x7F800000#32
  let main_v10 : FVec F S400000x20 .f32 := broadcastInDim S400000x20 ![] bcast_S_S400000x20 main_cst_2
  let main_v11 : IVec S400000x20 1 := cmpf .olt main_v9 main_v10
  let main_c_3 : IVec S_ 1 := constantI S_ 1 1#1
  let main_v12 : IVec S_ 1 := (fun x v => Host.reduce IntOp.andi x v reducesTo_S400000x20_S_d0_1 h_S_) main_v11 main_c_3
  let main_v13 : IVec S_ 1 := andi main_v8 main_v12
  let main_v14 : FVec F S400000 .f32 := Host.absf main_arg3
  let main_cst_4 : FVec F S_ .f32 := constant S_ .f32 0x7F800000#32
  let main_v15 : FVec F S400000 .f32 := broadcastInDim S400000 ![] bcast_S_S400000 main_cst_4
  let main_v16 : IVec S400000 1 := cmpf .olt main_v14 main_v15
  fn_part1 (F := F) main_arg4 main_arg5 main_arg6 main_arg7 main_arg8 main_arg9 main_arg10 main_v13 main_v16
-- ==== Kernel.lean ====
abbrev S20000x128 : Shape := ⟨2, ![20000, 128]⟩
abbrev S20000x3x128 : Shape := ⟨3, ![20000, 3, 128]⟩
abbrev S400000x20 : Shape := ⟨2, ![400000, 20]⟩
abbrev S400000 : Shape := ⟨1, ![400000]⟩
abbrev S400000x3 : Shape := ⟨2, ![400000, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S20x384 : Shape := ⟨2, ![20, 384]⟩
abbrev S2x400000 : Shape := ⟨2, ![2, 400000]⟩
abbrev S1x400000 : Shape := ⟨2, ![1, 400000]⟩
abbrev S_ : Shape := ⟨0, ![]⟩
abbrev S400000x1 : Shape := ⟨2, ![400000, 1]⟩
abbrev S400000x21 : Shape := ⟨2, ![400000, 21]⟩
abbrev S1x384 : Shape := ⟨2, ![1, 384]⟩
abbrev S21x384 : Shape := ⟨2, ![21, 384]⟩
abbrev S1408 : Shape := ⟨1, ![1408]⟩
abbrev S401408 : Shape := ⟨1, ![401408]⟩
abbrev S401408x21 : Shape := ⟨2, ![401408, 21]⟩
abbrev S401408x3 : Shape := ⟨2, ![401408, 3]⟩
abbrev S20000x384 : Shape := ⟨2, ![20000, 384]⟩
abbrev S401408x1 : Shape := ⟨2, ![401408, 1]⟩
abbrev S401408x128 : Shape := ⟨2, ![401408, 128]⟩
abbrev S401408x384 : Shape := ⟨2, ![401408, 384]⟩
abbrev S1x128 : Shape := ⟨2, ![1, 128]⟩
abbrev S2048x128 : Shape := ⟨2, ![2048, 128]⟩
abbrev S2048x384 : Shape := ⟨2, ![2048, 384]⟩
abbrev S2048x21 : Shape := ⟨2, ![2048, 21]⟩
abbrev S2048x3 : Shape := ⟨2, ![2048, 3]⟩
abbrev S2048x1 : Shape := ⟨2, ![2048, 1]⟩
abbrev S401408x3x128 : Shape := ⟨3, ![401408, 3, 128]⟩

abbrev nBuf : Space → Nat
  | .hbm => 70
  | .vmem => 17
  | .smem => 0
  | _ => 0

abbrev bufTy : (tb : Table) → Fin (tcTables nBuf tb) → BufTy
  | .hbm, ⟨0, _⟩ => ⟨S20000x128, .f32⟩
  | .hbm, ⟨1, _⟩ => ⟨S20000x3x128, .f32⟩
  | .hbm, ⟨2, _⟩ => ⟨S400000x20, .f32⟩
  | .hbm, ⟨3, _⟩ => ⟨S400000, .f32⟩
  | .hbm, ⟨4, _⟩ => ⟨S400000x3, .f32⟩
  | .hbm, ⟨5, _⟩ => ⟨S128x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S20x384, .f32⟩
  | .hbm, ⟨10, _⟩ => ⟨S384, .f32⟩
  | .hbm, ⟨11, _⟩ => ⟨S2x400000, .i32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S_, .f32⟩
  | .hbm, ⟨17, _⟩ => ⟨S400000x1, .f32⟩
  | .hbm, ⟨18, _⟩ => ⟨S400000x21, .f32⟩
  | .hbm, ⟨19, _⟩ => ⟨S400000x1, .f32⟩
  | .hbm, ⟨20, _⟩ => ⟨S400000x21, .f32⟩
  | .hbm, ⟨21, _⟩ => ⟨S400000x21, .f32⟩
  | .hbm, ⟨22, _⟩ => ⟨S1x384, .f32⟩
  | .hbm, ⟨23, _⟩ => ⟨S21x384, .f32⟩
  | .hbm, ⟨24, _⟩ => ⟨S_, .i32⟩
  | .hbm, ⟨25, _⟩ => ⟨S1408, .i32⟩
  | .hbm, ⟨26, _⟩ => ⟨S401408, .i32⟩
  | .hbm, ⟨27, _⟩ => ⟨S_, .i32⟩
  | .hbm, ⟨28, _⟩ => ⟨S1408, .i32⟩
  | .hbm, ⟨29, _⟩ => ⟨S401408, .i32⟩
  | .hbm, ⟨30, _⟩ => ⟨S_, .i32⟩
  | .hbm, ⟨31, _⟩ => ⟨S_, .f32⟩
  | .hbm, ⟨32, _⟩ => ⟨S401408x21, .f32⟩
  | .hbm, ⟨33, _⟩ => ⟨S_, .i32⟩
  | .hbm, ⟨34, _⟩ => ⟨S_, .f32⟩
  | .hbm, ⟨35, _⟩ => ⟨S401408x3, .f32⟩
  | .hbm, ⟨36, _⟩ => ⟨S20000x128, .bf16⟩
  | .hbm, ⟨37, _⟩ => ⟨S20000x3x128, .bf16⟩
  | .hbm, ⟨38, _⟩ => ⟨S20000x384, .bf16⟩
  | .hbm, ⟨39, _⟩ => ⟨S_, .i32⟩
  | .hbm, ⟨40, _⟩ => ⟨S401408, .i32⟩
  | .hbm, ⟨41, _⟩ => ⟨S401408, .i1⟩
  | .hbm, ⟨42, _⟩ => ⟨S_, .i32⟩
  | .hbm, ⟨43, _⟩ => ⟨S401408, .i32⟩
  | .hbm, ⟨44, _⟩ => ⟨S401408, .i32⟩
  | .hbm, ⟨45, _⟩ => ⟨S401408, .i32⟩
  | .hbm, ⟨46, _⟩ => ⟨S401408x1, .i32⟩
  | .hbm, ⟨47, _⟩ => ⟨S401408x128, .bf16⟩
  | .hbm, ⟨48, _⟩ => ⟨S_, .i32⟩
  | .hbm, ⟨49, _⟩ => ⟨S401408, .i32⟩
  | .hbm, ⟨50, _⟩ => ⟨S401408, .i1⟩
  | .hbm, ⟨51, _⟩ => ⟨S_, .i32⟩
  | .hbm, ⟨52, _⟩ => ⟨S401408, .i32⟩
  | .hbm, ⟨53, _⟩ => ⟨S401408, .i32⟩
  | .hbm, ⟨54, _⟩ => ⟨S401408, .i32⟩
  | .hbm, ⟨55, _⟩ => ⟨S401408x1, .i32⟩
  | .hbm, ⟨56, _⟩ => ⟨S401408x384, .bf16⟩
  | .hbm, ⟨57, _⟩ => ⟨S1x128, .f32⟩
  | .hbm, ⟨58, _⟩ => ⟨S1x384, .f32⟩
  | .hbm, ⟨59, _⟩ => ⟨S401408x128, .f32⟩
  | .hbm, ⟨60, _⟩ => ⟨S401408x384, .f32⟩
  | .hbm, ⟨61, _⟩ => ⟨S_, .f32⟩
  | .hbm, ⟨62, _⟩ => ⟨S20000x128, .f32⟩
  | .hbm, ⟨63, _⟩ => ⟨S401408x1, .i32⟩
  | .hbm, ⟨64, _⟩ => ⟨S20000x128, .f32⟩
  | .hbm, ⟨65, _⟩ => ⟨S401408x3x128, .f32⟩
  | .hbm, ⟨66, _⟩ => ⟨S_, .f32⟩
  | .hbm, ⟨67, _⟩ => ⟨S20000x3x128, .f32⟩
  | .hbm, ⟨68, _⟩ => ⟨S401408x1, .i32⟩
  | .hbm, ⟨69, _⟩ => ⟨S20000x3x128, .f32⟩
  | .local _ .vmem, ⟨0, _⟩ => ⟨S2048x128, .bf16⟩
  | .local _ .vmem, ⟨1, _⟩ => ⟨S2048x128, .bf16⟩
  | .local _ .vmem, ⟨2, _⟩ => ⟨S2048x384, .bf16⟩
  | .local _ .vmem, ⟨3, _⟩ => ⟨S2048x384, .bf16⟩
  | .local _ .vmem, ⟨4, _⟩ => ⟨S2048x21, .f32⟩
  | .local _ .vmem, ⟨5, _⟩ => ⟨S2048x21, .f32⟩
  | .local _ .vmem, ⟨6, _⟩ => ⟨S2048x3, .f32⟩
  | .local _ .vmem, ⟨7, _⟩ => ⟨S2048x3, .f32⟩
  | .local _ .vmem, ⟨8, _⟩ => ⟨S128x128, .f32⟩
  | .local _ .vmem, ⟨9, _⟩ => ⟨S1x128, .f32⟩
  | .local _ .vmem, ⟨10, _⟩ => ⟨S128x384, .f32⟩
  | .local _ .vmem, ⟨11, _⟩ => ⟨S1x384, .f32⟩
  | .local _ .vmem, ⟨12, _⟩ => ⟨S21x384, .f32⟩
  | .local _ .vmem, ⟨13, _⟩ => ⟨S2048x128, .f32⟩
  | .local _ .vmem, ⟨14, _⟩ => ⟨S2048x128, .f32⟩
  | .local _ .vmem, ⟨15, _⟩ => ⟨S2048x384, .f32⟩
  | .local _ .vmem, ⟨16, _⟩ => ⟨S2048x384, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_call0_v0 : Ref sig .tc := ⟨.hbm, 31, rfl⟩
abbrev main_v15 : Ref sig .tc := ⟨.hbm, 32, rfl⟩
abbrev main_c_2 : Ref sig .tc := ⟨.hbm, 33, rfl⟩
abbrev main_call1_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36_0 : Ref sig .tc := ⟨.hbm, 59, rfl⟩
abbrev main_v36_1 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S21x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000x1 : S_.BroadcastsInDim S400000x1 (![] : Fin 0 → Fin S400000x1.rank)
  concatenates_S400000x20_S400000x1_S400000x21_d1 : Shape.Concatenates [S400000x20, S400000x1] S400000x21 1
  bcast_S400000_S400000x1_0 : S400000.BroadcastsInDim S400000x1 (![0] : Fin 1 → Fin S400000x1.rank)
  bcast_S400000x1_S400000x21_0_1 : S400000x1.BroadcastsInDim S400000x21 (![0, 1] : Fin 2 → Fin S400000x21.rank)
  bcast_S384_S1x384_1 : S384.BroadcastsInDim S1x384 (![1] : Fin 1 → Fin S1x384.rank)
  concatenates_S20x384_S1x384_S21x384_d0 : Shape.Concatenates [S20x384, S1x384] S21x384 0
  bcast_S_S1408 : S_.BroadcastsInDim S1408 (![] : Fin 0 → Fin S1408.rank)
  concatenates_S400000_S1408_S401408_d0 : Shape.Concatenates [S400000, S1408] S401408 0
  pads_S400000x21_S401408x21_014080_000 : S400000x21.Pads (![0, 0] : Fin 2 → Nat) ![1408, 0] ![0, 0] S401408x21
  h_S_ : 0 < S_.numel
  pads_S400000x3_S401408x3_014080_000 : S400000x3.Pads (![0, 0] : Fin 2 → Nat) ![1408, 0] ![0, 0] S401408x3
  bitsLt_bf16_f32 : FTy.bits .bf16 < FTy.bits .f32
  shapeCasts_S20000x3x128_S20000x384 : S20000x3x128.ShapeCasts S20000x384
  bcast_S_S401408 : S_.BroadcastsInDim S401408 (![] : Fin 0 → Fin S401408.rank)
  bcast_S401408_S401408x1_0 : S401408.BroadcastsInDim S401408x1 (![0] : Fin 1 → Fin S401408x1.rank)
  bcast_S128_S1x128_1 : S128.BroadcastsInDim S1x128 (![1] : Fin 1 → Fin S1x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S2048x21_S2048x21_0_0 : ∀ a, (![0, 0] : Fin 2 → Nat) a + S2048x21.size a ≤ S2048x21.size a
  h_S2048x21 : 0 < S2048x21.numel
  shapeCasts_S2048x21_S2048x21 : S2048x21.ShapeCasts S2048x21
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S21x384_S21x384_0_0 : ∀ a, (![0, 0] : Fin 2 → Nat) a + S21x384.size a ≤ S21x384.size a
  h_S21x384 : 0 < S21x384.numel
  shapeCasts_S21x384_S21x384 : S21x384.ShapeCasts S21x384
  broadcasts_S1x128_S2048x128 : S1x128.Broadcasts S2048x128
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  broadcasts_S2048x1_S2048x128 : S2048x1.Broadcasts S2048x128
  inb_S2048x384_S2048x128_0_0 : ∀ a, (![0, 0] : Fin 2 → Nat) a + S2048x128.size a ≤ S2048x384.size a
  inb_S2048x384_S2048x128_0_128 : ∀ a, (![0, 128] : Fin 2 → Nat) a + S2048x128.size a ≤ S2048x384.size a
  inb_S2048x384_S2048x128_0_256 : ∀ a, (![0, 256] : Fin 2 → Nat) a + S2048x128.size a ≤ S2048x384.size a
  bcast_S_S20000x128 : S_.BroadcastsInDim S20000x128 (![] : Fin 0 → Fin S20000x128.rank)
  shapeCasts_S401408x384_S401408x3x128 : S401408x384.ShapeCasts S401408x3x128
  bcast_S_S20000x3x128 : S_.BroadcastsInDim S20000x3x128 (![] : Fin 0 → Fin S20000x3x128.rank)
  gather_S20000x128_S401408x1_S401408x128_1_0_n_n_0_1_1128_wf : GatherDims.WF S20000x128 S401408x1 S401408x128 [1] [0] [] [0] [] 1 ![1, 128]
  gather_S20000x384_S401408x1_S401408x384_1_0_n_n_0_1_1384_wf : GatherDims.WF S20000x384 S401408x1 S401408x384 [1] [0] [] [0] [] 1 ![1, 384]
  dot_S2048x21_S21x384_S2048x384_1_0_0_1_n_n_wf : DotDims.WF S2048x21 S21x384 S2048x384 [1] [0] [0] [1] [] []
  dot_S2048x128_S128x128_S2048x128_1_0_0_1_n_n_wf : DotDims.WF S2048x128 S128x128 S2048x128 [1] [0] [0] [1] [] []
  dot_S2048x128_S128x384_S2048x384_1_0_0_1_n_n_wf : DotDims.WF S2048x128 S128x384 S2048x384 [1] [0] [0] [1] [] []
  scatter_S20000x128_S401408x1_S401408x128_1_0_0_1_wf : ScatterDims.WF S20000x128 S401408x1 S401408x128 [1] [0] [0] 1
  scatter_S20000x3x128_S401408x1_S401408x3x128_12_0_0_1_wf : ScatterDims.WF S20000x3x128 S401408x1 S401408x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S401408x128.size a
  hwx0_0 : ∀ i : grid0.Coords, EltTy.bits .bf16 = 32 ∨ (Rect.block (s := S401408x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x384.size a ≤ S401408x384.size a
  hwx0_1 : ∀ i : grid0.Coords, EltTy.bits .bf16 = 32 ∨ (Rect.block (s := S401408x384) S2048x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x21.size a ≤ S401408x21.size a
  hwx0_2 : ∀ i : grid0.Coords, EltTy.bits .f32 = 32 ∨ (Rect.block (s := S401408x21) S2048x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x3.size a ≤ S401408x3.size a
  hwx0_3 : ∀ i : grid0.Coords, EltTy.bits .f32 = 32 ∨ (Rect.block (s := S401408x3) S2048x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .f32 = 32 ∨ (Rect.block (s := S128x384) S128x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S21x384.size a ≤ S21x384.size a
  hwx0_8 : ∀ i : grid0.Coords, EltTy.bits .f32 = 32 ∨ (Rect.block (s := S21x384) S21x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S401408x128.size a
  hwx0_9 : ∀ i : grid0.Coords, EltTy.bits .f32 = 32 ∨ (Rect.block (s := S401408x128) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x384.size a ≤ S401408x384.size a
  hwx0_10 : ∀ i : grid0.Coords, EltTy.bits .f32 = 32 ∨ (Rect.block (s := S401408x384) S2048x384.size (cc0_transform_10 i) (hinb0_10 i)).WholeWords (EltTy.packing .f32)

variable [Facts₀]

def gather_S20000x128_S401408x1_S401408x128_1_0_n_n_0_1_1128 : GatherDims S20000x128 S401408x1 S401408x128 where
  offsetDims := [1]
  collapsedSliceDims := [0]
  operandBatchingDims := []
  startIndicesBatchingDims := []
  startIndexMap := [0]
  indexVectorDim := 1
  sliceSizes := ![1, 128]
  wf := gather_S20000x128_S401408x1_S401408x128_1_0_n_n_0_1_1128_wf
def gather_S20000x384_S401408x1_S401408x384_1_0_n_n_0_1_1384 : GatherDims S20000x384 S401408x1 S401408x384 where
  offsetDims := [1]
  collapsedSliceDims := [0]
  operandBatchingDims := []
  startIndicesBatchingDims := []
  startIndexMap := [0]
  indexVectorDim := 1
  sliceSizes := ![1, 384]
  wf := gather_S20000x384_S401408x1_S401408x384_1_0_n_n_0_1_1384_wf
def dot_S2048x21_S21x384_S2048x384_1_0_0_1_n_n : DotDims S2048x21 S21x384 S2048x384 where
  lhsContracting := [1]
  rhsContracting := [0]
  lhsNonContracting := [0]
  rhsNonContracting := [1]
  lhsBatch := []
  rhsBatch := []
  wf := dot_S2048x21_S21x384_S2048x384_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf
def scatter_S20000x128_S401408x1_S401408x128_1_0_0_1 : ScatterDims S20000x128 S401408x1 S401408x128 where
  updateWindowDims := [1]
  insertedWindowDims := [0]
  scatterDimsToOperandDims := [0]
  indexVectorDim := 1
  wf := scatter_S20000x128_S401408x1_S401408x128_1_0_0_1_wf
def scatter_S20000x3x128_S401408x1_S401408x3x128_12_0_0_1 : ScatterDims S20000x3x128 S401408x1 S401408x3x128 where
  updateWindowDims := [1, 2]
  insertedWindowDims := [0]
  scatterDimsToOperandDims := [0]
  indexVectorDim := 1
  wf := scatter_S20000x3x128_S401408x1_S401408x3x128_12_0_0_1_wf

abbrev win0_0 : Pipeline.Window sig grid0 :=
  Pipeline.Window.ofSpec (Memref.whole main_v26) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S2048x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x21.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2048x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S21x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36_0) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v36_1) S2048x384.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S20000x128 : Shape := ⟨2, ![20000, 128]⟩
abbrev S20000x3x128 : Shape := ⟨3, ![20000, 3, 128]⟩
abbrev S400000x20 : Shape := ⟨2, ![400000, 20]⟩
abbrev S400000 : Shape := ⟨1, ![400000]⟩
abbrev S400000x3 : Shape := ⟨2, ![400000, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S20x384 : Shape := ⟨2, ![20, 384]⟩
abbrev S2x400000 : Shape := ⟨2, ![2, 400000]⟩
abbrev S1x400000 : Shape := ⟨2, ![1, 400000]⟩
abbrev S400000x384 : Shape := ⟨2, ![400000, 384]⟩
abbrev S1x384 : Shape := ⟨2, ![1, 384]⟩
abbrev S400000x1 : Shape := ⟨2, ![400000, 1]⟩
abbrev S_ : Shape := ⟨0, ![]⟩
abbrev S400000x128 : Shape := ⟨2, ![400000, 128]⟩
abbrev S1x128 : Shape := ⟨2, ![1, 128]⟩
abbrev S400000x1x128 : Shape := ⟨3, ![400000, 1, 128]⟩
abbrev S400000x3x1 : Shape := ⟨3, ![400000, 3, 1]⟩
abbrev S400000x3x128 : Shape := ⟨3, ![400000, 3, 128]⟩

abbrev nBuf : Space → Nat
  | .hbm => 91
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x3x128, .f32⟩
  | .hbm, ⟨2, _⟩ => ⟨S400000x20, .f32⟩
  | .hbm, ⟨3, _⟩ => ⟨S400000, .f32⟩
  | .hbm, ⟨4, _⟩ => ⟨S400000x3, .f32⟩
  | .hbm, ⟨5, _⟩ => ⟨S128x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S20x384, .f32⟩
  | .hbm, ⟨10, _⟩ => ⟨S384, .f32⟩
  | .hbm, ⟨11, _⟩ => ⟨S2x400000, .i32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S400000x384, .f32⟩
  | .hbm, ⟨17, _⟩ => ⟨S1x384, .f32⟩
  | .hbm, ⟨18, _⟩ => ⟨S400000x384, .f32⟩
  | .hbm, ⟨19, _⟩ => ⟨S400000x384, .f32⟩
  | .hbm, ⟨20, _⟩ => ⟨S400000x1, .f32⟩
  | .hbm, ⟨21, _⟩ => ⟨S400000x384, .f32⟩
  | .hbm, ⟨22, _⟩ => ⟨S400000x384, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x128, .f32⟩
  | .hbm, ⟨32, _⟩ => ⟨S400000x128, .f32⟩
  | .hbm, ⟨33, _⟩ => ⟨S1x128, .f32⟩
  | .hbm, ⟨34, _⟩ => ⟨S400000x128, .f32⟩
  | .hbm, ⟨35, _⟩ => ⟨S400000x128, .f32⟩
  | .hbm, ⟨36, _⟩ => ⟨S400000x128, .f32⟩
  | .hbm, ⟨37, _⟩ => ⟨S400000x128, .f32⟩
  | .hbm, ⟨38, _⟩ => ⟨S_, .f32⟩
  | .hbm, ⟨39, _⟩ => ⟨S400000x128, .f32⟩
  | .hbm, ⟨40, _⟩ => ⟨S400000x128, .f32⟩
  | .hbm, ⟨41, _⟩ => ⟨S_, .f32⟩
  | .hbm, ⟨42, _⟩ => ⟨S400000x128, .f32⟩
  | .hbm, ⟨43, _⟩ => ⟨S400000x128, .f32⟩
  | .hbm, ⟨44, _⟩ => ⟨S400000x128, .f32⟩
  | .hbm, ⟨45, _⟩ => ⟨S400000x384, .f32⟩
  | .hbm, ⟨46, _⟩ => ⟨S1x384, .f32⟩
  | .hbm, ⟨47, _⟩ => ⟨S400000x384, .f32⟩
  | .hbm, ⟨48, _⟩ => ⟨S400000x384, .f32⟩
  | .hbm, ⟨49, _⟩ => ⟨S400000x384, .f32⟩
  | .hbm, ⟨50, _⟩ => ⟨S400000x128, .f32⟩
  | .hbm, ⟨51, _⟩ => ⟨S400000x128, .f32⟩
  | .hbm, ⟨52, _⟩ => ⟨S400000x128, .f32⟩
  | .hbm, ⟨53, _⟩ => ⟨S_, .f32⟩
  | .hbm, ⟨54, _⟩ => ⟨S20000x128, .f32⟩
  | .hbm, ⟨55, _⟩ => ⟨S400000x1, .i32⟩
  | .hbm, ⟨56, _⟩ => ⟨S20000x128, .f32⟩
  | .hbm, ⟨57, _⟩ => ⟨S400000x1x128, .f32⟩
  | .hbm, ⟨58, _⟩ => ⟨S400000x3x1, .f32⟩
  | .hbm, ⟨59, _⟩ => ⟨S400000x3x128, .f32⟩
  | .hbm, ⟨60, _⟩ => ⟨S400000x3x128, .f32⟩
  | .hbm, ⟨61, _⟩ => ⟨S400000x3x128, .f32⟩
  | .hbm, ⟨62, _⟩ => ⟨S_, .f32⟩
  | .hbm, ⟨63, _⟩ => ⟨S20000x3x128, .f32⟩
  | .hbm, ⟨64, _⟩ => ⟨S400000x1, .i32⟩
  | .hbm, ⟨65, _⟩ => ⟨S20000x3x128, .f32⟩
  | .hbm, ⟨66, _⟩ => ⟨S_, .i32⟩
  | .hbm, ⟨67, _⟩ => ⟨S400000, .i32⟩
  | .hbm, ⟨68, _⟩ => ⟨S400000, .i1⟩
  | .hbm, ⟨69, _⟩ => ⟨S_, .i32⟩
  | .hbm, ⟨70, _⟩ => ⟨S400000, .i32⟩
  | .hbm, ⟨71, _⟩ => ⟨S400000, .i32⟩
  | .hbm, ⟨72, _⟩ => ⟨S400000, .i32⟩
  | .hbm, ⟨73, _⟩ => ⟨S400000x1, .i32⟩
  | .hbm, ⟨74, _⟩ => ⟨S400000x3x128, .f32⟩
  | .hbm, ⟨75, _⟩ => ⟨S400000x3x1, .f32⟩
  | .hbm, ⟨76, _⟩ => ⟨S400000x3x128, .f32⟩
  | .hbm, ⟨77, _⟩ => ⟨S400000x3x128, .f32⟩
  | .hbm, ⟨78, _⟩ => ⟨S_, .f32⟩
  | .hbm, ⟨79, _⟩ => ⟨S400000x128, .f32⟩
  | .hbm, ⟨80, _⟩ => ⟨S400000x128, .f32⟩
  | .hbm, ⟨81, _⟩ => ⟨S400000x1x128, .f32⟩
  | .hbm, ⟨82, _⟩ => ⟨S400000x3x1, .f32⟩
  | .hbm, ⟨83, _⟩ => ⟨S400000x3x128, .f32⟩
  | .hbm, ⟨84, _⟩ => ⟨S400000x3x128, .f32⟩
  | .hbm, ⟨85, _⟩ => ⟨S400000x3x128, .f32⟩
  | .hbm, ⟨86, _⟩ => ⟨S_, .f32⟩
  | .hbm, ⟨87, _⟩ => ⟨S20000x3x128, .f32⟩
  | .hbm, ⟨88, _⟩ => ⟨S400000x1, .i32⟩
  | .hbm, ⟨89, _⟩ => ⟨S20000x3x128, .f32⟩
  | .hbm, ⟨90, _⟩ => ⟨S20000x3x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_1 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_2 : Ref sig .tc := ⟨.hbm, 66, rfl⟩
abbrev main_v42 : Ref sig .tc := ⟨.hbm, 67, rfl⟩
abbrev main_v43 : Ref sig .tc := ⟨.hbm, 68, rfl⟩
abbrev main_c_3 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  bcast_S400000_S400000x1_0 : S400000.BroadcastsInDim S400000x1 (![0] : Fin 1 → Fin S400000x1.rank)
  bcast_S400000x1_S400000x384_0_1 : S400000x1.BroadcastsInDim S400000x384 (![0, 1] : Fin 2 → Fin S400000x384.rank)
  bcast_S_S400000 : S_.BroadcastsInDim S400000 (![] : Fin 0 → Fin S400000.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  bcast_S_S20000x128 : S_.BroadcastsInDim S20000x128 (![] : Fin 0 → Fin S20000x128.rank)
  bcast_S400000x128_S400000x1x128_0_2 : S400000x128.BroadcastsInDim S400000x1x128 (![0, 2] : Fin 2 → Fin S400000x1x128.rank)
  bcast_S400000x3_S400000x3x1_0_1 : S400000x3.BroadcastsInDim S400000x3x1 (![0, 1] : Fin 2 → Fin S400000x3x1.rank)
  bcast_S400000x1x128_S400000x3x128_0_1_2 : S400000x1x128.BroadcastsInDim S400000x3x128 (![0, 1, 2] : Fin 3 → Fin S400000x3x128.rank)
  bcast_S400000x3x1_S400000x3x128_0_1_2 : S400000x3x1.BroadcastsInDim S400000x3x128 (![0, 1, 2] : Fin 3 → Fin S400000x3x128.rank)
  bcast_S_S20000x3x128 : S_.BroadcastsInDim S20000x3x128 (![] : Fin 0 → Fin S20000x3x128.rank)
  reducesTo_S400000x3x128_S400000x128_d1 : S400000x3x128.ReducesTo [1] S400000x128
  h_S_ : 0 < S_.numel
  dot_S400000x20_S20x384_S400000x384_1_0_0_1_n_n_wf : DotDims.WF S400000x20 S20x384 S400000x384 [1] [0] [0] [1] [] []
  gather_S20000x128_S400000x1_S400000x128_1_0_n_n_0_1_1128_wf : GatherDims.WF S20000x128 S400000x1 S400000x128 [1] [0] [] [0] [] 1 ![1, 128]
  dot_S400000x128_S128x128_S400000x128_1_0_0_1_n_n_wf : DotDims.WF S400000x128 S128x128 S400000x128 [1] [0] [0] [1] [] []
  dot_S400000x128_S128x384_S400000x384_1_0_0_1_n_n_wf : DotDims.WF S400000x128 S128x384 S400000x384 [1] [0] [0] [1] [] []
  scatter_S20000x128_S400000x1_S400000x128_1_0_0_1_wf : ScatterDims.WF S20000x128 S400000x1 S400000x128 [1] [0] [0] 1
  scatter_S20000x3x128_S400000x1_S400000x3x128_12_0_0_1_wf : ScatterDims.WF S20000x3x128 S400000x1 S400000x3x128 [1, 2] [0] [0] 1
  gather_S20000x3x128_S400000x1_S400000x3x128_12_0_n_n_0_1_13128_wf : GatherDims.WF S20000x3x128 S400000x1 S400000x3x128 [1, 2] [0] [] [0] [] 1 ![1, 3, 128]

variable [Facts₀]

def dot_S400000x20_S20x384_S400000x384_1_0_0_1_n_n : DotDims S400000x20 S20x384 S400000x384 where
  lhsContracting := [1]
  rhsContracting := [0]
  lhsNonContracting := [0]
  rhsNonContracting := [1]
  lhsBatch := []
  rhsBatch := []
  wf := dot_S400000x20_S20x384_S400000x384_1_0_0_1_n_n_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000x3x128_S400000x1_S400000x3x128_12_0_0_1 : ScatterDims S20000x3x128 S400000x1 S400000x3x128 where
  updateWindowDims := [1, 2]
  insertedWindowDims := [0]
  scatterDimsToOperandDims := [0]
  indexVectorDim := 1
  wf := scatter_S20000x3x128_S400000x1_S400000x3x128_12_0_0_1_wf
def gather_S20000x3x128_S400000x1_S400000x3x128_12_0_n_n_0_1_13128 : GatherDims S20000x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S20000x3x128_S400000x1_S400000x3x128_12_0_n_n_0_1_13128_wf

class Facts : Prop extends Facts₀ where

variable [Facts]
-- ==== Proof.MsgSpec.lean ====
/-
  The message-passing layer as one function of the argument arrays, over the extended reals.

  For an edge `e` with endpoints (i e, j e): the gathered source row is row `srcRow (j e)` of the node
  arrays (a negative index wraps by the node count, then the index is clamped into range); the edge's
  activations are
    pre  e k = Σ_a s[src e, a] · W1[a, k] + b1[k]
    hid  e k = pre e k · logistic (pre e k)
    lin2 e c = Σ_k hid e k · W2[k, c] + b2[c]
    gate e c = (Σ_r rbf[e, r] · Wr[r, c] + br[c]) · cut[e]
    xval e c = lin2 e c · gate e c                      (c < 384: three column thirds)
    inner e k = Σ_d v[src e, d, k] · ev[e, d]
  and the results sum the edges whose destination word is the node, read signed and not wrapped:
    ds[n, k]    = Σ_{e : i e = n} xval e k
    dv[n, d, k] = Σ_{e : i e = n} xval e (128 + k) · ev[e, d]  +  Σ_{e : i e = n} (inner e k · xval e (256 + k)) · ev[e, d].
-/
import Idealize.ShloMosaic.PureOps.Ideal
import Idealize.ShloMosaic.Lib.ValueIdx

noncomputable section

open scoped BigOperators

namespace Cert.Msg

open Idealize.ShloMosaic Idealize.ShloMosaic.ValueIdx

/-- Arrays of extended reals over literal extents. -/
abbrev Arr1 (n0 : Nat) : Type := (⟨1, ![n0]⟩ : Shape).Idx → EReal
abbrev Arr2 (n0 n1 : Nat) : Type := (⟨2, ![n0, n1]⟩ : Shape).Idx → EReal
abbrev Arr3 (n0 n1 n2 : Nat) : Type := (⟨3, ![n0, n1, n2]⟩ : Shape).Idx → EReal
/-- The edge list: row 0 the destinations, row 1 the sources, as 32-bit words. -/
abbrev Edges : Type := (⟨2, ![2, 400000]⟩ : Shape).Idx → BitVec 32

/-- The argument arrays. -/
structure Args where
  s : Arr2 20000 128
  v : Arr3 20000 3 128
  rbf : Arr2 400000 20
  cut : Arr1 400000
  ev : Arr2 400000 3
  W1 : Arr2 128 128
  b1 : Arr1 128
  W2 : Arr2 128 384
  b2 : Arr1 384
  Wr : Arr2 20 384
  br : Arr1 384
  ei : Edges

/-- The node row a source word reads: a negative word wraps by the node count, and the result,
    read signed, is clamped into `[0, 19999]`. -/
def srcRow (j : BitVec 32) : Fin 20000 :=
  ⟨min (Scalar.select (IntOp.cmpi .slt j 0#32) (IntOp.addi j 20000#32) j).toInt.toNat 19999,
    Nat.lt_succ_of_le (Nat.min_le_right _ _)⟩

/-- An edge's destination word and source word. -/
def dstWord (A : Args) (e : Fin 400000) : BitVec 32 := A.ei (ix2 (0 : Fin 2) e)
def srcWord (A : Args) (e : Fin 400000) : BitVec 32 := A.ei (ix2 (1 : Fin 2) e)
/-- The node row edge `e` gathers. -/
def src (A : Args) (e : Fin 400000) : Fin 20000 := srcRow (srcWord A e)
/-- Edge `e` lands on node `n`: its destination word, read signed, is `n`. -/
def lands (A : Args) (e : Fin 400000) (n : Fin 20000) : Prop := (dstWord A e).toInt = (n.val : ℤ)
instance (A : Args) (e : Fin 400000) (n : Fin 20000) : Decidable (lands A e n) := by unfold lands; infer_instance

/-- The first linear layer on the gathered row, with its bias. -/
def pre (A : Args) (e : Fin 400000) (k : Fin 128) : EReal :=
  (∑ a : Fin 128, A.s (ix2 (src A e) a) * A.W1 (ix2 a k)) + A.b1 (ix1 k)
/-- Its activation `x · logistic x`. -/
def hid (A : Args) (e : Fin 400000) (k : Fin 128) : EReal := pre A e k * Ideal.logistic (pre A e k)
/-- The second linear layer, with its bias. -/
def lin2 (A : Args) (e : Fin 400000) (c : Fin 384) : EReal :=
  (∑ k : Fin 128, hid A e k * A.W2 (ix2 k c)) + A.b2 (ix1 c)
/-- The radial projection with its bias, scaled by the edge's cutoff. -/
def gate (A : Args) (e : Fin 400000) (c : Fin 384) : EReal :=
  ((∑ r : Fin 20, A.rbf (ix2 e r) * A.Wr (ix2 r c)) + A.br (ix1 c)) * A.cut (ix1 e)
/-- The gated edge features. -/
def xval (A : Args) (e : Fin 400000) (c : Fin 384) : EReal := lin2 A e c * gate A e c
/-- The gathered vector features projected on the edge direction. -/
def inner (A : Args) (e : Fin 400000) (k : Fin 128) : EReal :=
  ∑ d : Fin 3, A.v (ix3 (src A e) d k) * A.ev (ix2 e d)

/-- Column `k` of the first, second, third column third of the 384 gated features. -/
abbrev col0 (k : Fin 128) : Fin 384 := ⟨k.val, by omega⟩
abbrev col1 (k : Fin 128) : Fin 384 := ⟨128 + k.val, by omega⟩
abbrev col2 (k : Fin 128) : Fin 384 := ⟨256 + k.val, by omega⟩

/-- The scalar update of node `n`, feature `k`. -/
def dsAt (A : Args) (n : Fin 20000) (k : Fin 128) : EReal :=
  ∑ e : Fin 400000, if lands A e n then xval A e (col0 k) else 0
/-- The vector update of node `n`, direction `d`, feature `k`: the two scattered sums. -/
def dvAt (A : Args) (n : Fin 20000) (d : Fin 3) (k : Fin 128) : EReal :=
  (∑ e : Fin 400000, if lands A e n then xval A e (col1 k) * A.ev (ix2 e d) else 0)
  + (∑ e : Fin 400000, if lands A e n then (inner A e k * xval A e (col2 k)) * A.ev (ix2 e d) else 0)

/-- The two results as arrays. -/
def dsOut (A : Args) : Arr2 20000 128 := fun i => dsAt A ⟨(i 0).val, idx2_lt0 i⟩ ⟨(i 1).val, idx2_lt1 i⟩
def dvOut (A : Args) : Arr3 20000 3 128 := fun i =>
  dvAt A ⟨(i 0).val, (i 0).isLt⟩ ⟨(i 1).val, (i 1).isLt⟩ ⟨(i 2).val, (i 2).isLt⟩

theorem dsOut_ix2 (A : Args) (n : Fin 20000) (k : Fin 128) : dsOut A (ix2 n k) = dsAt A n k := rfl
theorem dvOut_ix3 (A : Args) (n : Fin 20000) (d : Fin 3) (k : Fin 128) : dvOut A (ix3 n d k) = dvAt A n d k := rfl

end Cert.Msg

end
-- ==== Proof.MsgArgs.lean ====
/-
  The two programs' argument arrays, read out of a memory, as the specification's bundle of arrays.
-/
import proofs.«143102_j71390946394547_2_alg».proof.KernelIdeal
import proofs.«143102_j71390946394547_2_alg».proof.ReferenceIdeal
import proofs.«143102_j71390946394547_2_alg».proof.Proof.MsgSpec
import Idealize.ShloMosaic.PureOps.Ideal

noncomputable section

open Idealize.ShloMosaic Idealize.SL.Sem

/-- The argument arrays core `c` holds in memory `m` of the kernel's program. -/
def Cert.KernelIdeal.argsOf (m : (ℓ : Loc Cert.KernelIdeal.nD Cert.KernelIdeal.τ Cert.KernelIdeal.sig) → Buf (Elt Ideal) ℓ) (c : Dev Cert.KernelIdeal.nD) : Cert.Msg.Args where
  s := m ((c.tc : Thread Cert.KernelIdeal.nD Cert.KernelIdeal.τ).loc Cert.KernelIdeal.main_arg0)
  v := m ((c.tc : Thread Cert.KernelIdeal.nD Cert.KernelIdeal.τ).loc Cert.KernelIdeal.main_arg1)
  rbf := m ((c.tc : Thread Cert.KernelIdeal.nD Cert.KernelIdeal.τ).loc Cert.KernelIdeal.main_arg2)
  cut := m ((c.tc : Thread Cert.KernelIdeal.nD Cert.KernelIdeal.τ).loc Cert.KernelIdeal.main_arg3)
  ev := m ((c.tc : Thread Cert.KernelIdeal.nD Cert.KernelIdeal.τ).loc Cert.KernelIdeal.main_arg4)
  W1 := m ((c.tc : Thread Cert.KernelIdeal.nD Cert.KernelIdeal.τ).loc Cert.KernelIdeal.main_arg5)
  b1 := m ((c.tc : Thread Cert.KernelIdeal.nD Cert.KernelIdeal.τ).loc Cert.KernelIdeal.main_arg6)
  W2 := m ((c.tc : Thread Cert.KernelIdeal.nD Cert.KernelIdeal.τ).loc Cert.KernelIdeal.main_arg7)
  b2 := m ((c.tc : Thread Cert.KernelIdeal.nD Cert.KernelIdeal.τ).loc Cert.KernelIdeal.main_arg8)
  Wr := m ((c.tc : Thread Cert.KernelIdeal.nD Cert.KernelIdeal.τ).loc Cert.KernelIdeal.main_arg9)
  br := m ((c.tc : Thread Cert.KernelIdeal.nD Cert.KernelIdeal.τ).loc Cert.KernelIdeal.main_arg10)
  ei := m ((c.tc : Thread Cert.KernelIdeal.nD Cert.KernelIdeal.τ).loc Cert.KernelIdeal.main_arg11)

/-- The argument arrays core `c` holds in memory `m` of the reference's program. -/
def Cert.ReferenceIdeal.argsOf (m : (ℓ : Loc Cert.ReferenceIdeal.nD Cert.ReferenceIdeal.τ Cert.ReferenceIdeal.sig) → Buf (Elt Ideal) ℓ) (c : Dev Cert.ReferenceIdeal.nD) : Cert.Msg.Args where
  s := m ((c.tc : Thread Cert.ReferenceIdeal.nD Cert.ReferenceIdeal.τ).loc Cert.ReferenceIdeal.main_arg0)
  v := m ((c.tc : Thread Cert.ReferenceIdeal.nD Cert.ReferenceIdeal.τ).loc Cert.ReferenceIdeal.main_arg1)
  rbf := m ((c.tc : Thread Cert.ReferenceIdeal.nD Cert.ReferenceIdeal.τ).loc Cert.ReferenceIdeal.main_arg2)
  cut := m ((c.tc : Thread Cert.ReferenceIdeal.nD Cert.ReferenceIdeal.τ).loc Cert.ReferenceIdeal.main_arg3)
  ev := m ((c.tc : Thread Cert.ReferenceIdeal.nD Cert.ReferenceIdeal.τ).loc Cert.ReferenceIdeal.main_arg4)
  W1 := m ((c.tc : Thread Cert.ReferenceIdeal.nD Cert.ReferenceIdeal.τ).loc Cert.ReferenceIdeal.main_arg5)
  b1 := m ((c.tc : Thread Cert.ReferenceIdeal.nD Cert.ReferenceIdeal.τ).loc Cert.ReferenceIdeal.main_arg6)
  W2 := m ((c.tc : Thread Cert.ReferenceIdeal.nD Cert.ReferenceIdeal.τ).loc Cert.ReferenceIdeal.main_arg7)
  b2 := m ((c.tc : Thread Cert.ReferenceIdeal.nD Cert.ReferenceIdeal.τ).loc Cert.ReferenceIdeal.main_arg8)
  Wr := m ((c.tc : Thread Cert.ReferenceIdeal.nD Cert.ReferenceIdeal.τ).loc Cert.ReferenceIdeal.main_arg9)
  br := m ((c.tc : Thread Cert.ReferenceIdeal.nD Cert.ReferenceIdeal.τ).loc Cert.ReferenceIdeal.main_arg10)
  ei := m ((c.tc : Thread Cert.ReferenceIdeal.nD Cert.ReferenceIdeal.τ).loc Cert.ReferenceIdeal.main_arg11)

end
-- ==== Proof.MsgPad.lean ====
/-
  The kernel's side of the layer: the edge list padded with 1408 zero edges to 401408 = 196 · 2048 rows.

  A padded edge has source word 0, destination word 0, radial row 0 and direction 0. The radial row of a
  real edge is extended by a trailing 1 and scaled by the cutoff, and the radial weights by the bias row,
  so that one 21-term product sum is `(Σ_r rbf · Wr + br) · cut`.
-/
import proofs.«143102_j71390946394547_2_alg».proof.Proof.MsgSpec

noncomputable section

open scoped BigOperators

namespace Cert.Msg

open Idealize.ShloMosaic Idealize.ShloMosaic.ValueIdx

/-- The source and destination words of the padded edge list. -/
def srcWordP (A : Args) (e : Fin 401408) : BitVec 32 := if h : e.val < 400000 then srcWord A ⟨e.val, h⟩ else 0#32
def dstWordP (A : Args) (e : Fin 401408) : BitVec 32 := if h : e.val < 400000 then dstWord A ⟨e.val, h⟩ else 0#32
/-- The node row padded edge `e` gathers. -/
def srcP (A : Args) (e : Fin 401408) : Fin 20000 := srcRow (srcWordP A e)
/-- The extended, cutoff-scaled radial row of a padded edge (zero past the real edges). -/
def augP (A : Args) (e : Fin 401408) (r : Fin 21) : EReal :=
  if h : e.val < 400000 then
    (if hr : r.val < 20 then A.rbf (ix2 (⟨e.val, h⟩ : Fin 400000) (⟨r.val, hr⟩ : Fin 20)) else 1) * A.cut (ix1 (⟨e.val, h⟩ : Fin 400000))
  else 0
/-- The direction of a padded edge (zero past the real edges). -/
def evP (A : Args) (e : Fin 401408) (d : Fin 3) : EReal :=
  if h : e.val < 400000 then A.ev (ix2 (⟨e.val, h⟩ : Fin 400000) d) else 0
/-- The radial weights extended by the bias row. -/
def WrAug (A : Args) (r : Fin 21) (c : Fin 384) : EReal :=
  if hr : r.val < 20 then A.Wr (ix2 (⟨r.val, hr⟩ : Fin 20) c) else A.br (ix1 c)

/-- The kernel's per-edge quantities over the padded list. -/
def preP (A : Args) (e : Fin 401408) (k : Fin 128) : EReal :=
  (∑ a : Fin 128, A.s (ix2 (srcP A e) a) * A.W1 (ix2 a k)) + A.b1 (ix1 k)
def hidP (A : Args) (e : Fin 401408) (k : Fin 128) : EReal := preP A e k * Ideal.logistic (preP A e k)
def lin2P (A : Args) (e : Fin 401408) (c : Fin 384) : EReal :=
  (∑ k : Fin 128, hidP A e k * A.W2 (ix2 k c)) + A.b2 (ix1 c)
def gateP (A : Args) (e : Fin 401408) (c : Fin 384) : EReal := ∑ r : Fin 21, augP A e r * WrAug A r c
def xvalP (A : Args) (e : Fin 401408) (c : Fin 384) : EReal := lin2P A e c * gateP A e c
def innerP (A : Args) (e : Fin 401408) (k : Fin 128) : EReal :=
  A.v (ix3 (srcP A e) (0 : Fin 3) k) * evP A e 0 + A.v (ix3 (srcP A e) (1 : Fin 3) k) * evP A e 1
    + A.v (ix3 (srcP A e) (2 : Fin 3) k) * evP A e 2

/-- Column `128 · d + k` of a 384-wide row. -/
abbrev colD (d : Fin 3) (k : Fin 128) : Fin 384 := ⟨128 * d.val + k.val, by omega⟩

/-- The kernel's two per-edge outputs: the scalar features, and the vector features by direction. -/
def dsEdge (A : Args) : Arr2 401408 128 := fun i =>
  xvalP A ⟨(i 0).val, idx2_lt0 i⟩ (col0 ⟨(i 1).val, idx2_lt1 i⟩)
def dvEdgeAt (A : Args) (e : Fin 401408) (d : Fin 3) (k : Fin 128) : EReal :=
  (xvalP A e (col1 k) + innerP A e k * xvalP A e (col2 k)) * evP A e d
def dvEdge (A : Args) : Arr2 401408 384 := fun i =>
  dvEdgeAt A ⟨(i 0).val, idx2_lt0 i⟩ ⟨(i 1).val / 128, by have := idx2_lt1 i; omega⟩ ⟨(i 1).val % 128, Nat.mod_lt _ (by omega)⟩

theorem dsEdge_ix2 (A : Args) (e : Fin 401408) (k : Fin 128) : dsEdge A (ix2 e k) = xvalP A e (col0 k) := rfl

end Cert.Msg

end
-- ==== Proof.MsgReal.lean ====
/-
  Finiteness of the message-passing layer's arguments, and what it buys.

  Over the extended reals multiplication does not distribute over addition in general (an infinite
  factor against a sum of opposite signs), so the two algebraic steps that need it are stated for
  finite values: `IsReal x` says `x` is the image of a real number. Every quantity the layer
  computes from finite arguments is finite: they are sums, products and logistics of finite values.
-/
import proofs.«143102_j71390946394547_2_alg».proof.Proof.MsgPad
import proofs.«143102_j71390946394547_2_alg».proof.Proof.MsgArgs
import proofs.«143102_j71390946394547_2_alg».proof.Defs
import Idealize.ShloMosaic.PureOps.Ideal.Laws
import Idealize.ShloMosaic.Lib.IdealHost
import Idealize.ShloMosaic.Lib.ReduceAll

noncomputable section

open scoped BigOperators

namespace Cert.Msg

open Idealize.ShloMosaic Idealize.ShloMosaic.ValueIdx

/-! ### Part 1: finite values -/

/-- `x` is a real number (neither infinity). -/
def IsReal (x : EReal) : Prop := ∃ r : ℝ, x = (r : EReal)

theorem IsReal.zero : IsReal 0 := ⟨0, rfl⟩
theorem IsReal.one : IsReal 1 := ⟨1, rfl⟩
theorem IsReal.coe (r : ℝ) : IsReal (r : EReal) := ⟨r, rfl⟩

theorem IsReal.add {a b : EReal} : IsReal a → IsReal b → IsReal (a + b) := by
  rintro ⟨x, rfl⟩ ⟨y, rfl⟩
  exact ⟨x + y, (EReal.coe_add x y).symm⟩

theorem IsReal.mul {a b : EReal} : IsReal a → IsReal b → IsReal (a * b) := by
  rintro ⟨x, rfl⟩ ⟨y, rfl⟩
  exact ⟨x * y, (EReal.coe_mul x y).symm⟩

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih fun i hi => h i (Finset.mem_insert_of_mem hi))

theorem IsReal.logistic {a : EReal} : IsReal a → IsReal (Ideal.logistic a) := by
  rintro ⟨x, rfl⟩
  exact ⟨_, Ideal.logistic_coe x⟩

/-- The coercion of a finite real sum is the sum of the coercions. -/
theorem coe_real_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Right distributivity, for finite values. -/
theorem add_mul_real {a b c : EReal} (ha : IsReal a) (hb : IsReal b) (hc : IsReal c) :
    (a + b) * c = a * c + b * c := by
  obtain ⟨x, rfl⟩ := ha
  obtain ⟨y, rfl⟩ := hb
  obtain ⟨z, rfl⟩ := hc
  rw [← EReal.coe_add, ← EReal.coe_mul, ← EReal.coe_mul, ← EReal.coe_mul, ← EReal.coe_add]
  exact congrArg _ (by ring)

/-- The cutoff folded into the radial row: a biased 20-term product sum scaled by `c` is the
    21-term product sum of the row scaled by `c` (its trailing entry `1 · c`) against the weights
    extended by the bias. -/
theorem gate_fold (p q : Fin 20 → EReal) (b c : EReal) (hp : ∀ r, IsReal (p r)) (hq : ∀ r, IsReal (q r))
    (hb : IsReal b) (hc : IsReal c) :
    ((∑ r : Fin 20, p r * q r) + b) * c = (∑ r : Fin 20, (p r * c) * q r) + (1 * c) * b := by
  choose p' hp' using hp
  choose q' hq' using hq
  obtain ⟨b', rfl⟩ := hb
  obtain ⟨c', rfl⟩ := hc
  have h1 : (∑ r : Fin 20, p r * q r) = ((∑ r : Fin 20, p' r * q' r : ℝ) : EReal) := by
    rw [coe_real_sum]
    exact Finset.sum_congr rfl fun r _ => by rw [hp' r, hq' r, EReal.coe_mul]
  have h2 : (∑ r : Fin 20, (p r * (c' : EReal)) * q r) = ((∑ r : Fin 20, (p' r * c') * q' r : ℝ) : EReal) := by
    rw [coe_real_sum]
    exact Finset.sum_congr rfl fun r _ => by rw [hp' r, hq' r, EReal.coe_mul, EReal.coe_mul]
  rw [h1, h2, ← EReal.coe_one, ← EReal.coe_add, ← EReal.coe_mul, ← EReal.coe_mul, ← EReal.coe_mul, ← EReal.coe_add]
  refine congrArg _ ?_
  rw [add_mul, Finset.sum_mul]
  congr 1
  · exact Finset.sum_congr rfl fun r _ => by ring
  · ring

/-! ### Part 2: finite arguments give finite quantities -/

/-- Every float argument array holds real numbers only. -/
structure Args.Real (A : Args) : Prop where
  s : ∀ i, IsReal (A.s i)
  v : ∀ i, IsReal (A.v i)
  rbf : ∀ i, IsReal (A.rbf i)
  cut : ∀ i, IsReal (A.cut i)
  ev : ∀ i, IsReal (A.ev i)
  W1 : ∀ i, IsReal (A.W1 i)
  b1 : ∀ i, IsReal (A.b1 i)
  W2 : ∀ i, IsReal (A.W2 i)
  b2 : ∀ i, IsReal (A.b2 i)
  Wr : ∀ i, IsReal (A.Wr i)
  br : ∀ i, IsReal (A.br i)

theorem real_pre (A : Args) (hA : A.Real) (e : Fin 400000) (k : Fin 128) : IsReal (pre A e k) :=
  IsReal.add (IsReal.sum _ _ fun a _ => IsReal.mul (hA.s _) (hA.W1 _)) (hA.b1 _)

theorem real_hid (A : Args) (hA : A.Real) (e : Fin 400000) (k : Fin 128) : IsReal (hid A e k) :=
  IsReal.mul (real_pre A hA e k) (IsReal.logistic (real_pre A hA e k))

theorem real_lin2 (A : Args) (hA : A.Real) (e : Fin 400000) (c : Fin 384) : IsReal (lin2 A e c) :=
  IsReal.add (IsReal.sum _ _ fun k _ => IsReal.mul (real_hid A hA e k) (hA.W2 _)) (hA.b2 _)

theorem real_gate (A : Args) (hA : A.Real) (e : Fin 400000) (c : Fin 384) : IsReal (gate A e c) :=
  IsReal.mul (IsReal.add (IsReal.sum _ _ fun r _ => IsReal.mul (hA.rbf _) (hA.Wr _)) (hA.br _)) (hA.cut _)

theorem real_xval (A : Args) (hA : A.Real) (e : Fin 400000) (c : Fin 384) : IsReal (xval A e c) :=
  IsReal.mul (real_lin2 A hA e c) (real_gate A hA e c)

theorem real_inner (A : Args) (hA : A.Real) (e : Fin 400000) (k : Fin 128) : IsReal (inner A e k) :=
  IsReal.sum _ _ fun d _ => IsReal.mul (hA.v _) (hA.ev _)

theorem real_preP (A : Args) (hA : A.Real) (e : Fin 401408) (k : Fin 128) : IsReal (preP A e k) :=
  IsReal.add (IsReal.sum _ _ fun a _ => IsReal.mul (hA.s _) (hA.W1 _)) (hA.b1 _)

theorem real_hidP (A : Args) (hA : A.Real) (e : Fin 401408) (k : Fin 128) : IsReal (hidP A e k) :=
  IsReal.mul (real_preP A hA e k) (IsReal.logistic (real_preP A hA e k))

theorem real_lin2P (A : Args) (hA : A.Real) (e : Fin 401408) (c : Fin 384) : IsReal (lin2P A e c) :=
  IsReal.add (IsReal.sum _ _ fun k _ => IsReal.mul (real_hidP A hA e k) (hA.W2 _)) (hA.b2 _)

theorem real_augP (A : Args) (hA : A.Real) (e : Fin 401408) (r : Fin 21) : IsReal (augP A e r) := by
  unfold augP
  split
  · refine IsReal.mul ?_ (hA.cut _)
    split
    · exact hA.rbf _
    · exact IsReal.one
  · exact IsReal.zero

theorem real_evP (A : Args) (hA : A.Real) (e : Fin 401408) (d : Fin 3) : IsReal (evP A e d) := by
  unfold evP
  split
  · exact hA.ev _
  · exact IsReal.zero

theorem real_WrAug (A : Args) (hA : A.Real) (r : Fin 21) (c : Fin 384) : IsReal (WrAug A r c) := by
  unfold WrAug
  split
  · exact hA.Wr _
  · exact hA.br _

theorem real_gateP (A : Args) (hA : A.Real) (e : Fin 401408) (c : Fin 384) : IsReal (gateP A e c) :=
  IsReal.sum _ _ fun r _ => IsReal.mul (real_augP A hA e r) (real_WrAug A hA r c)

theorem real_xvalP (A : Args) (hA : A.Real) (e : Fin 401408) (c : Fin 384) : IsReal (xvalP A e c) :=
  IsReal.mul (real_lin2P A hA e c) (real_gateP A hA e c)

theorem real_innerP (A : Args) (hA : A.Real) (e : Fin 401408) (k : Fin 128) : IsReal (innerP A e k) :=
  IsReal.add (IsReal.add (IsReal.mul (hA.v _) (real_evP A hA e 0)) (IsReal.mul (hA.v _) (real_evP A hA e 1)))
    (IsReal.mul (hA.v _) (real_evP A hA e 2))

/-! ### Part 3: the precondition gives finite arguments -/

/-- An extended real whose absolute value is below `+∞` (the pattern `0x7F800000`) is a real. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- One `jnp.all (|x| < inf)` of the printed predicate, read back: every entry of `x` is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr h0 ValueIdx.ix0 = 1#1) (i : s.Idx) : IsReal (x i) := by
  have := Host.reduce_andi_all _ _ hr h0 ValueIdx.ix0 e i
  exact isReal_of_abs_lt (x i) this

/-- The precondition of the kernel's program says every float argument array holds reals only. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.argsOf m c).Real := by
  have h1 := congrFun (h c) ValueIdx.ix0
  dsimp only [Cert.Pre_finite_inputs.fn, Cert.Pre_finite_inputs.fn_part1, Cert.Pre_finite_inputs.fn_part2,
    Cert.Pre_finite_inputs.fn_part3, andi] at h1
  simp only [IntOp.andi_eq_one] at h1
  obtain ⟨⟨⟨⟨⟨⟨⟨⟨⟨⟨e0, e1⟩, e2⟩, e3⟩, e4⟩, e5⟩, e6⟩, e7⟩, e8⟩, e9⟩, e10⟩ := h1
  exact
    { s := real_of_all _ _ _ _ e0
      v := real_of_all _ _ _ _ e1
      rbf := real_of_all _ _ _ _ e2
      cut := real_of_all _ _ _ _ e3
      ev := real_of_all _ _ _ _ e4
      W1 := real_of_all _ _ _ _ e5
      b1 := real_of_all _ _ _ _ e6
      W2 := real_of_all _ _ _ _ e7
      b2 := real_of_all _ _ _ _ e8
      Wr := real_of_all _ _ _ _ e9
      br := real_of_all _ _ _ _ e10 }

end Cert.Msg

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.RefValue.lean ====
/-
  The reference program's two results are the specification's arrays.

  The reference is read one operation at a time, outermost first. Each layout operation (slice, reshape,
  broadcast) reads its operand at an index computed from the literal shapes; on an index given by its
  coordinates that index is again given by coordinates, which is checked axis by axis. The elementwise
  operations are the extended reals' own; a product of two tables along one axis is the finite sum of
  products; the activation x · (1 / (1 + exp (−x))) is x · logistic x by the definition of logistic, the
  literal one being 1. The two gathers read the row named by the source word — moved up by the node count when
  negative, then read signed and clamped — which is the specification's source row. The three accumulating
  scatters start from the zero table, so each result entry is 0 plus the sum, over the edges whose
  destination word read signed is the node, of the update; the one float sum starts from zero likewise. The
  vector result is the sum of its two scattered tables.
-/
import proofs.«143102_j71390946394547_2_alg».proof.Proof.Gen.ReferenceIdeal.Read
import proofs.«143102_j71390946394547_2_alg».proof.Proof.MsgSpec
import proofs.«143102_j71390946394547_2_alg».proof.Proof.LibRows
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefValue

open Cert.Msg Cert.ReferenceIdeal Cert.ReferenceIdeal.Gen Cert.ReferenceIdeal.Read
open Idealize.ShloMosaic Idealize.ShloMosaic.ValueIdx Idealize.ShloMosaic.StableHlo

/-- The radial projection with its bias, scaled by the cutoff, at (e, c). -/
theorem gate_eq (A : Args) (e : Fin 400000) (c : Fin 384) :
    val_main_v10 (F := Ideal) A.rbf A.cut A.Wr A.br (ix2 e c) = gate A e c := by
  rw [val_main_v10_apply, val_main_v7_apply, val_main_v4_apply, val_main_v6_apply, val_main_v5_apply,
    val_main_v9_apply, val_main_v8_apply]
  have e1 : ∀ k : Fin 20, lidx_main_v4 (ix2 e c) k = ix2 e k := fun k =>
    funext fun a => Fin.ext (by match a with | ⟨0, _⟩ => rfl | ⟨1, _⟩ => rfl)
  have e2 : ∀ k : Fin 20, ridx_main_v4 (ix2 e c) k = ix2 k c := fun k =>
    funext fun a => Fin.ext (by match a with | ⟨0, _⟩ => rfl | ⟨1, _⟩ => rfl)
  have e3 : idx_main_v5 (idx_main_v6 (ix2 e c)) = ix1 c :=
    funext fun a => Fin.ext (by match a with | ⟨0, _⟩ => rfl)
  have e4 : idx_main_v8 (idx_main_v9 (ix2 e c)) = ix1 e :=
    funext fun a => Fin.ext (by match a with | ⟨0, _⟩ => rfl)
  simp only [e1, e2, e3, e4]
  rfl

/-- Row 1 of the edge list, flattened, at e is the edge's source word. -/
theorem srcWord_eq (A : Args) (e : Fin 400000) : val_main_v3 (F := Ideal) A.ei (ix1 e) = srcWord A e := by
  rw [val_main_v3_apply, val_main_v2_apply]
  have e1 : idx_main_v2 (idx_main_v3 (ix1 e)) = ix2 (1 : Fin 2) e :=
    funext fun a => Fin.ext (by
      match a with
      | ⟨0, _⟩ => rfl
      | ⟨1, _⟩ => exact Nat.mod_eq_of_lt e.isLt)
  rw [e1]
  rfl

/-- Row 0 of the edge list, flattened, at e is the edge's destination word. -/
theorem dstWord_eq (A : Args) (e : Fin 400000) : val_main_v1 (F := Ideal) A.ei (ix1 e) = dstWord A e := by
  rw [val_main_v1_apply, val_main_v0_apply]
  have e1 : idx_main_v0 (idx_main_v1 (ix1 e)) = ix2 (0 : Fin 2) e :=
    funext fun a => Fin.ext (by
      match a with
      | ⟨0, _⟩ => rfl
      | ⟨1, _⟩ => exact Nat.mod_eq_of_lt e.isLt)
  rw [e1]
  rfl

/-- The wrapped source word: a negative word moved up by the node count. -/
def wrapWord (j : BitVec 32) : BitVec 32 :=
  Scalar.select (IntOp.cmpi .slt j 0#32) (IntOp.addi j 20000#32) j

/-- The first gather's column of start words at e. -/
theorem startS_eq (A : Args) (e : Fin 400000) :
    val_main_v16 (F := Ideal) A.ei (ix2 e (0 : Fin 1)) = wrapWord (srcWord A e) := by
  rw [val_main_v16_apply]
  have e1 : idx_main_v16 (ix2 e (0 : Fin 1)) = ix1 e :=
    funext fun a => Fin.ext (by match a with | ⟨0, _⟩ => rfl)
  rw [e1, val_main_v15_apply, val_main_v12_apply, val_main_v14_apply, val_main_v11_apply, val_main_v13_apply,
    val_main_c_apply, val_main_c_0_apply, srcWord_eq]
  rfl

/-- The second gather's column of start words at e. -/
theorem startV_eq (A : Args) (e : Fin 400000) :
    val_main_v47 (F := Ideal) A.ei (ix2 e (0 : Fin 1)) = wrapWord (srcWord A e) := by
  rw [val_main_v47_apply]
  have e1 : idx_main_v47 (ix2 e (0 : Fin 1)) = ix1 e :=
    funext fun a => Fin.ext (by match a with | ⟨0, _⟩ => rfl)
  rw [e1, val_main_v46_apply, val_main_v43_apply, val_main_v45_apply, val_main_v42_apply, val_main_v44_apply,
    val_main_c_2_apply, val_main_c_3_apply, srcWord_eq]
  rfl

/-- The gathered scalar rows at (e, a): the source row's entry. -/
theorem gathS_eq (A : Args) (e : Fin 400000) (a : Fin 128) :
    val_main_v17 (F := Ideal) A.s A.ei (ix2 e a) = A.s (ix2 (src A e) a) := by
  unfold val_main_v17
  generalize hy : val_main_v16 (F := Ideal) A.ei = y
  refine (Cert.Rows.gather2_apply (N := 20000) (C := 128) (M := 400000) (by decide)
    gather_S20000x128_S400000x1_S400000x128_1_0_n_n_0_1_1128.wf A.s y e a).trans ?_
  subst hy
  simp only [startS_eq]
  rfl

/-- The gathered vector slabs at (e, d, k): the source row's entry. -/
theorem gathV_eq (A : Args) (e : Fin 400000) (d : Fin 3) (k : Fin 128) :
    val_main_v48 (F := Ideal) A.v A.ei (ix3 e d k) = A.v (ix3 (src A e) d k) := by
  unfold val_main_v48
  generalize hy : val_main_v47 (F := Ideal) A.ei = y
  refine (Cert.Rows.gather3_apply (N := 20000) (B := 3) (C := 128) (M := 400000) (by decide)
    gather_S20000x3x128_S400000x1_S400000x3x128_12_0_n_n_0_1_13128.wf A.v y e d k).trans ?_
  subst hy
  simp only [startV_eq]
  rfl

/-- The first linear layer on the gathered row, with its bias, at (e, k). -/
theorem pre_eq (A : Args) (e : Fin 400000) (k : Fin 128) :
    val_main_v21 (F := Ideal) A.s A.W1 A.b1 A.ei (ix2 e k) = pre A e k := by
  rw [val_main_v21_apply, val_main_v18_apply, val_main_v20_apply, val_main_v19_apply]
  have e1 : ∀ a : Fin 128, lidx_main_v18 (ix2 e k) a = ix2 e a := fun a =>
    funext fun b => Fin.ext (by match b with | ⟨0, _⟩ => rfl | ⟨1, _⟩ => rfl)
  have e2 : ∀ a : Fin 128, ridx_main_v18 (ix2 e k) a = ix2 a k := fun a =>
    funext fun b => Fin.ext (by match b with | ⟨0, _⟩ => rfl | ⟨1, _⟩ => rfl)
  have e3 : idx_main_v19 (idx_main_v20 (ix2 e k)) = ix1 k :=
    funext fun b => Fin.ext (by match b with | ⟨0, _⟩ => rfl)
  simp only [e1, e2, e3, gathS_eq]
  rfl

/-- The activation x · (1 / (1 + exp (−x))) at (e, k). -/
theorem hid_eq (A : Args) (e : Fin 400000) (k : Fin 128) :
    val_main_v22 (F := Ideal) A.s A.W1 A.b1 A.ei (ix2 e k) = hid A e k := by
  rw [val_main_v22_apply, val_main_call0_v5_apply, val_main_call0_v4_apply, val_main_call0_cst_0_apply,
    val_main_call0_v3_apply, val_main_call0_v2_apply, val_main_call0_cst_apply, val_main_call0_v1_apply,
    val_main_call0_v0_apply, pre_eq]
  simp only [Ideal.ofBits_def, Ideal.ofBits_one_f32, Ideal.mulf_def, Ideal.addf_def, Ideal.hostDivf_def,
    Ideal.hostUnary_exp_def, Ideal.hostNegf_def, Ideal.negf_def]
  rfl

/-- The second linear layer, with its bias, at (e, c). -/
theorem lin2_eq (A : Args) (e : Fin 400000) (c : Fin 384) :
    val_main_v26 (F := Ideal) A.s A.W1 A.b1 A.W2 A.b2 A.ei (ix2 e c) = lin2 A e c := by
  rw [val_main_v26_apply, val_main_v23_apply, val_main_v25_apply, val_main_v24_apply]
  have e1 : ∀ k : Fin 128, lidx_main_v23 (ix2 e c) k = ix2 e k := fun k =>
    funext fun b => Fin.ext (by match b with | ⟨0, _⟩ => rfl | ⟨1, _⟩ => rfl)
  have e2 : ∀ k : Fin 128, ridx_main_v23 (ix2 e c) k = ix2 k c := fun k =>
    funext fun b => Fin.ext (by match b with | ⟨0, _⟩ => rfl | ⟨1, _⟩ => rfl)
  have e3 : idx_main_v24 (idx_main_v25 (ix2 e c)) = ix1 c :=
    funext fun b => Fin.ext (by match b with | ⟨0, _⟩ => rfl)
  simp only [e1, e2, e3, hid_eq]
  rfl

/-- The gated edge features at (e, c). -/
theorem xval_eq (A : Args) (e : Fin 400000) (c : Fin 384) :
    val_main_v27 (F := Ideal) A.s A.rbf A.cut A.W1 A.b1 A.W2 A.b2 A.Wr A.br A.ei (ix2 e c) = xval A e c := by
  rw [val_main_v27_apply, lin2_eq, gate_eq]
  rfl

/-- The three column thirds of the gated features at (e, k). -/
theorem x0_eq (A : Args) (e : Fin 400000) (k : Fin 128) :
    val_main_v28 (F := Ideal) A.s A.rbf A.cut A.W1 A.b1 A.W2 A.b2 A.Wr A.br A.ei (ix2 e k) = xval A e (col0 k) := by
  rw [val_main_v28_apply]
  have e1 : idx_main_v28 (ix2 e k) = ix2 e (col0 k) :=
    funext fun b => Fin.ext (by match b with | ⟨0, _⟩ => rfl | ⟨1, _⟩ => rfl)
  rw [e1, xval_eq]

theorem x1_eq (A : Args) (e : Fin 400000) (k : Fin 128) :
    val_main_v29 (F := Ideal) A.s A.rbf A.cut A.W1 A.b1 A.W2 A.b2 A.Wr A.br A.ei (ix2 e k) = xval A e (col1 k) := by
  rw [val_main_v29_apply]
  have e1 : idx_main_v29 (ix2 e k) = ix2 e (col1 k) :=
    funext fun b => Fin.ext (by match b with | ⟨0, _⟩ => rfl | ⟨1, _⟩ => rfl)
  rw [e1, xval_eq]

theorem x2_eq (A : Args) (e : Fin 400000) (k : Fin 128) :
    val_main_v30 (F := Ideal) A.s A.rbf A.cut A.W1 A.b1 A.W2 A.b2 A.Wr A.br A.ei (ix2 e k) = xval A e (col2 k) := by
  rw [val_main_v30_apply]
  have e1 : idx_main_v30 (ix2 e k) = ix2 e (col2 k) :=
    funext fun b => Fin.ext (by match b with | ⟨0, _⟩ => rfl | ⟨1, _⟩ => rfl)
  rw [e1, xval_eq]

/-- The gathered vector features projected on the edge direction, at (e, k). -/
theorem inner_eq (A : Args) (e : Fin 400000) (k : Fin 128) :
    val_main_v52 (F := Ideal) A.v A.ev A.ei (ix2 e k) = inner A e k := by
  rw [val_main_v52_apply, val_main_cst_4_apply]
  have e1 : ∀ d : Fin 3, idx_main_v52 (ix2 e k) d = ix3 e d k := fun d =>
    funext fun b => Fin.ext (by match b with | ⟨0, _⟩ => rfl | ⟨1, _⟩ => rfl | ⟨2, _⟩ => rfl)
  have e2 : ∀ d : Fin 3, idx_main_v49 (idx_main_v50 (ix3 e d k)) = ix2 e d := fun d =>
    funext fun b => Fin.ext (by match b with | ⟨0, _⟩ => rfl | ⟨1, _⟩ => rfl)
  simp only [e1, val_main_v51_apply, val_main_v50_apply, val_main_v49_apply, e2, gathV_eq,
    Ideal.ofBits_def, Ideal.ofBits_zero_f32, zero_add]
  rfl

/-- The scatters' columns of start words at e: the destination word. -/
theorem start32_eq (A : Args) (e : Fin 400000) :
    val_main_v32 (F := Ideal) A.ei (ix2 e (0 : Fin 1)) = dstWord A e := by
  rw [val_main_v32_apply]
  have e1 : idx_main_v32 (ix2 e (0 : Fin 1)) = ix1 e :=
    funext fun a => Fin.ext (by match a with | ⟨0, _⟩ => rfl)
  rw [e1, dstWord_eq]

theorem start40_eq (A : Args) (e : Fin 400000) :
    val_main_v40 (F := Ideal) A.ei (ix2 e (0 : Fin 1)) = dstWord A e := by
  rw [val_main_v40_apply]
  have e1 : idx_main_v40 (ix2 e (0 : Fin 1)) = ix1 e :=
    funext fun a => Fin.ext (by match a with | ⟨0, _⟩ => rfl)
  rw [e1, dstWord_eq]

theorem start60_eq (A : Args) (e : Fin 400000) :
    val_main_v60 (F := Ideal) A.ei (ix2 e (0 : Fin 1)) = dstWord A e := by
  rw [val_main_v60_apply]
  have e1 : idx_main_v60 (ix2 e (0 : Fin 1)) = ix1 e :=
    funext fun a => Fin.ext (by match a with | ⟨0, _⟩ => rfl)
  rw [e1, dstWord_eq]

/-- The rank-2 accumulating scatter of the reference, read at (n, k). -/
theorem scat2_apply (x : (⟨S20000x128, .f32⟩ : BufTy).Contents (Elt Ideal))
    (idx : (⟨S400000x1, .i32⟩ : BufTy).Contents (Elt Ideal))
    (upd : (⟨S400000x128, .f32⟩ : BufTy).Contents (Elt Ideal)) (n : Fin 20000) (k : Fin 128) :
    (Host.scatterAdd (F := Ideal) (φ := .f32) (w := 32) scatter_S20000x128_S400000x1_S400000x128_1_0_0_1 x idx upd :
        (⟨S20000x128, .f32⟩ : BufTy).Contents (Elt Ideal)) (ix2 n k)
      = x (ix2 n k) + ∑ e : Fin 400000,
          if (idx (ix2 e (0 : Fin 1))).toInt = (n.val : ℤ) then upd (ix2 e k) else 0 := by
  unfold Host.scatterAdd
  rw [Ideal.hostScatterAdd_def]
  exact Cert.Rows.scatterAdd2_apply (N := 20000) (C := 128) (M := 400000)
    scatter_S20000x128_S400000x1_S400000x128_1_0_0_1.wf x idx upd n k

/-- The reference's scalar result is the specification's. -/
theorem ds_eq (A : Args) :
    Cert.ReferenceIdeal.Read.val_main_v33 (F := Ideal) A.s A.rbf A.cut A.W1 A.b1 A.W2 A.b2 A.Wr A.br A.ei = dsOut A := by
  funext i
  obtain ⟨n, k, rfl⟩ : ∃ (n : Fin 20000) (k : Fin 128), i = ix2 n k := ⟨i 0, i 1, eq_ix2 i⟩
  rw [dsOut_ix2]
  unfold val_main_v33
  refine (scat2_apply _ _ _ n k).trans ?_
  rw [val_main_v31_apply, val_main_cst_apply, Ideal.ofBits_def, Ideal.ofBits_zero_f32, zero_add]
  unfold dsAt
  refine Finset.sum_congr rfl fun e _ => ?_
  rw [x0_eq, start32_eq]
  exact if_congr Iff.rfl rfl rfl

/-- The rank-3 accumulating scatter of the reference, read at (n, d, k). -/
theorem scat3_apply (x : (⟨S20000x3x128, .f32⟩ : BufTy).Contents (Elt Ideal))
    (idx : (⟨S400000x1, .i32⟩ : BufTy).Contents (Elt Ideal))
    (upd : (⟨S400000x3x128, .f32⟩ : BufTy).Contents (Elt Ideal)) (n : Fin 20000) (d : Fin 3) (k : Fin 128) :
    (Host.scatterAdd (F := Ideal) (φ := .f32) (w := 32) scatter_S20000x3x128_S400000x1_S400000x3x128_12_0_0_1 x idx upd :
        (⟨S20000x3x128, .f32⟩ : BufTy).Contents (Elt Ideal)) (ix3 n d k)
      = x (ix3 n d k) + ∑ e : Fin 400000,
          if (idx (ix2 e (0 : Fin 1))).toInt = (n.val : ℤ) then upd (ix3 e d k) else 0 := by
  unfold Host.scatterAdd
  rw [Ideal.hostScatterAdd_def]
  exact Cert.Rows.scatterAdd3_apply (N := 20000) (B := 3) (C := 128) (M := 400000)
    scatter_S20000x3x128_S400000x1_S400000x3x128_12_0_0_1.wf x idx upd n d k

/-- The first vector update's summand at (e, d, k). -/
theorem upd1_eq (A : Args) (e : Fin 400000) (d : Fin 3) (k : Fin 128) :
    val_main_v38 (F := Ideal) A.s A.rbf A.cut A.ev A.W1 A.b1 A.W2 A.b2 A.Wr A.br A.ei (ix3 e d k)
      = xval A e (col1 k) * A.ev (ix2 e d) := by
  rw [val_main_v38_apply, val_main_v36_apply, val_main_v34_apply, val_main_v37_apply, val_main_v35_apply]
  have e1 : idx_main_v34 (idx_main_v36 (ix3 e d k)) = ix2 e k :=
    funext fun b => Fin.ext (by match b with | ⟨0, _⟩ => rfl | ⟨1, _⟩ => rfl)
  have e2 : idx_main_v35 (idx_main_v37 (ix3 e d k)) = ix2 e d :=
    funext fun b => Fin.ext (by match b with | ⟨0, _⟩ => rfl | ⟨1, _⟩ => rfl)
  rw [e1, e2, x1_eq]
  rfl

/-- The second vector update's summand at (e, d, k). -/
theorem upd2_eq (A : Args) (e : Fin 400000) (d : Fin 3) (k : Fin 128) :
    val_main_v58 (F := Ideal) A.s A.v A.rbf A.cut A.ev A.W1 A.b1 A.W2 A.b2 A.Wr A.br A.ei (ix3 e d k)
      = (inner A e k * xval A e (col2 k)) * A.ev (ix2 e d) := by
  rw [val_main_v58_apply, val_main_v56_apply, val_main_v54_apply, val_main_v57_apply, val_main_v55_apply]
  have e1 : idx_main_v54 (idx_main_v56 (ix3 e d k)) = ix2 e k :=
    funext fun b => Fin.ext (by match b with | ⟨0, _⟩ => rfl | ⟨1, _⟩ => rfl)
  have e2 : idx_main_v55 (idx_main_v57 (ix3 e d k)) = ix2 e d :=
    funext fun b => Fin.ext (by match b with | ⟨0, _⟩ => rfl | ⟨1, _⟩ => rfl)
  rw [e1, e2, val_main_v53_apply, inner_eq, x2_eq]
  rfl

/-- The reference's vector result is the specification's. -/
theorem dv_eq (A : Args) :
    Cert.ReferenceIdeal.Read.val_main_v62 (F := Ideal) A.s A.v A.rbf A.cut A.ev A.W1 A.b1 A.W2 A.b2 A.Wr A.br A.ei = dvOut A := by
  funext i
  obtain ⟨n, d, k, rfl⟩ : ∃ (n : Fin 20000) (d : Fin 3) (k : Fin 128), i = ix3 n d k := ⟨i 0, i 1, i 2, eq_ix3 i⟩
  rw [dvOut_ix3, val_main_v62_apply]
  unfold val_main_v41 val_main_v61
  rw [scat3_apply, scat3_apply, val_main_v39_apply, val_main_cst_1_apply, val_main_v59_apply, val_main_cst_5_apply,
    Ideal.ofBits_def, Ideal.ofBits_zero_f32, zero_add, zero_add]
  unfold dvAt
  refine congrArg₂ (· + ·) (Finset.sum_congr rfl fun e _ => ?_) (Finset.sum_congr rfl fun e _ => ?_)
  · rw [upd1_eq, start40_eq]
    exact if_congr Iff.rfl rfl rfl
  · rw [upd2_eq, start60_eq]
    exact if_congr Iff.rfl rfl rfl

end Cert.ReferenceIdeal.RefValue

end
-- ==== Proof.KernelPre.lean ====
/-
  The arrays the kernel's program computes on the host before its region, read at an index.

  Each is a short composition of layout operations on the argument arrays: the edge list's two rows padded
  by 1408 zero words, the radial rows extended by a ones column, scaled by the cutoff and padded by 1408 zero
  rows, the directions padded by 1408 zero rows, the radial weights extended by the bias row, the two biases
  as rows, and the node arrays gathered at the padded source words (a negative word wrapped by the node
  count, then clamped).
-/
import proofs.«143102_j71390946394547_2_alg».proof.Proof.Gen.KernelIdeal.Frame
import proofs.«143102_j71390946394547_2_alg».proof.Proof.MsgPad
import proofs.«143102_j71390946394547_2_alg».proof.Proof.MsgArgs
import proofs.«143102_j71390946394547_2_alg».proof.Proof.LibRows
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost
import Idealize.ShloMosaic.Lib.IdealHost

noncomputable section

namespace Cert.KernelIdeal.Pre

open Idealize.ShloMosaic Idealize.ShloMosaic.ValueIdx Idealize.SL.Sem
open Cert.Msg Cert.KernelIdeal Cert.KernelIdeal.Gen

variable (m : (ℓ : Loc nD τ sig) → Buf (Elt Ideal) ℓ) (c : Dev nD)

/-- The padding value: the integer 0 converted to a real. -/
theorem padValue_eq : (sitofp (F := Ideal) .f32 (constantI S_ 32 0#32) : S_.Idx → EReal) (Shape.Idx.first h_S_) = 0 := by
  show (((0#32 : BitVec 32).toInt : ℝ) : EReal) = 0
  simp

/-! ## The directions, padded -/

/-- The directions' array as the operations compose it: the argument padded by 1408 rows of the padding value. -/
theorem v16_eq : (V m c main_v16 : (⟨2, ![401408, 3]⟩ : Shape).Idx → EReal)
    = pad S401408x3 ![0, 0] ![1408, 0] ![0, 0] (argsOf m c).ev (sitofp (F := Ideal) .f32 (constantI S_ 32 0#32))
        pads_S400000x3_S401408x3_014080_000 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

theorem v16_apply (e : Fin 401408) (d : Fin 3) :
    (V m c main_v16 : (⟨2, ![401408, 3]⟩ : Shape).Idx → EReal) (ix2 e d) = evP (argsOf m c) e d := by
  refine (congrFun (v16_eq m c) (ix2 e d)).trans ?_
  unfold evP
  by_cases h : e.val < 400000
  · rw [dif_pos h]
    exact pad_apply_of_inside _ _ _ _ _ _ _ (ix2 e d) (ix2 (⟨e.val, h⟩ : Fin 400000) d) (fun a => match a with
      | ⟨0, _⟩ => by show e.val = 0 + e.val * (0 + 1); omega
      | ⟨1, _⟩ => by show d.val = 0 + d.val * (0 + 1); omega)
  · rw [dif_neg h]
    refine (pad_apply_of_not_inside _ _ _ _ _ _ _ (ix2 e d) (⟨0, by decide⟩ : Fin 2) ?_).trans padValue_eq
    show ¬(0 ≤ e.val ∧ (e.val - 0) % (0 + 1) = 0 ∧ (e.val - 0) / (0 + 1) < 400000)
    omega

/-! ## The two biases as rows -/

theorem v34_eq : (V m c main_v34 : (⟨2, ![1, 128]⟩ : Shape).Idx → EReal)
    = broadcastInDim S1x128 ![1] bcast_S128_S1x128_1 (argsOf m c).b1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

theorem v34_apply (k : Fin 128) :
    (V m c main_v34 : (⟨2, ![1, 128]⟩ : Shape).Idx → EReal) (ix2 (0 : Fin 1) k) = (argsOf m c).b1 (ix1 k) := by
  refine (congrFun (v34_eq m c) (ix2 (0 : Fin 1) k)).trans ?_
  exact broadcastInDim_apply _ bcast_S128_S1x128_1 _ (ix2 (0 : Fin 1) k) (ix1 k) (fun a => match a with
    | ⟨0, _⟩ => by show k.val = if (128 : Nat) = 1 then 0 else k.val; rw [if_neg (by decide)])

theorem v35_eq : (V m c main_v35 : (⟨2, ![1, 384]⟩ : Shape).Idx → EReal)
    = broadcastInDim S1x384 ![1] bcast_S384_S1x384_1 (argsOf m c).b2 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

theorem v35_apply (k : Fin 384) :
    (V m c main_v35 : (⟨2, ![1, 384]⟩ : Shape).Idx → EReal) (ix2 (0 : Fin 1) k) = (argsOf m c).b2 (ix1 k) := by
  refine (congrFun (v35_eq m c) (ix2 (0 : Fin 1) k)).trans ?_
  exact broadcastInDim_apply _ bcast_S384_S1x384_1 _ (ix2 (0 : Fin 1) k) (ix1 k) (fun a => match a with
    | ⟨0, _⟩ => by show k.val = if (384 : Nat) = 1 then 0 else k.val; rw [if_neg (by decide)])

/-! ## The radial weights extended by the bias row -/

theorem v10_eq : (V m c main_v10 : (⟨2, ![21, 384]⟩ : Shape).Idx → EReal)
    = concatenate S21x384 0 [⟨S20x384, (argsOf m c).Wr⟩, ⟨S1x384, broadcastInDim S1x384 ![1] bcast_S384_S1x384_1 (argsOf m c).br⟩]
        concatenates_S20x384_S1x384_S21x384_d0 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

theorem v10_apply (r : Fin 21) (k : Fin 384) :
    (V m c main_v10 : (⟨2, ![21, 384]⟩ : Shape).Idx → EReal) (ix2 r k) = WrAug (argsOf m c) r k := by
  refine (congrFun (v10_eq m c) (ix2 r k)).trans ?_
  unfold WrAug
  by_cases hr : r.val < 20
  · rw [dif_pos hr]
    exact concatenate_pair_apply_left (t := S21x384) (s₁ := S20x384) (s₂ := S1x384) (⟨0, by decide⟩ : Fin 2) _ _
      concatenates_S20x384_S1x384_S21x384_d0 (ix2 r k) rfl
      (ix2 (⟨r.val, hr⟩ : Fin 20) k) (fun b => match b with
        | ⟨0, _⟩ => rfl
        | ⟨1, _⟩ => rfl)
  · rw [dif_neg hr]
    refine (concatenate_pair_apply_right (t := S21x384) (s₁ := S20x384) (s₂ := S1x384) (⟨0, by decide⟩ : Fin 2) _ _
      concatenates_S20x384_S1x384_S21x384_d0 (ix2 r k) rfl rfl
      (ix2 (0 : Fin 1) k) (fun b => match b with
        | ⟨0, _⟩ => fun hb => absurd rfl hb
        | ⟨1, _⟩ => fun _ => rfl) (by show 0 + 20 = r.val; omega)).trans ?_
    exact broadcastInDim_apply _ bcast_S384_S1x384_1 _ (ix2 (0 : Fin 1) k) (ix1 k) (fun a => match a with
      | ⟨0, _⟩ => by show k.val = if (384 : Nat) = 1 then 0 else k.val; rw [if_neg (by decide)])

/-! ## The radial rows: extended by a ones column, scaled by the cutoff, padded -/

theorem v15_eq : (V m c main_v15 : (⟨2, ![401408, 21]⟩ : Shape).Idx → EReal)
    = pad S401408x21 ![0, 0] ![1408, 0] ![0, 0]
        (mulf (F := Ideal) (φ := .f32)
          (concatenate S400000x21 1
            [⟨S400000x20, (argsOf m c).rbf⟩,
             ⟨S400000x1, broadcastInDim S400000x1 ![] bcast_S_S400000x1 (constant (F := Ideal) S_ .f32 0x3F800000#32)⟩]
            concatenates_S400000x20_S400000x1_S400000x21_d1)
          (broadcastInDim S400000x21 ![0, 1] bcast_S400000x1_S400000x21_0_1
            (broadcastInDim S400000x1 ![0] bcast_S400000_S400000x1_0 (argsOf m c).cut)))
        (sitofp (F := Ideal) .f32 (constantI S_ 32 0#32))
        pads_S400000x21_S401408x21_014080_000 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- The cutoff broadcast along the 21 columns, read at an index. -/
theorem cutB_apply (x : (⟨1, ![400000]⟩ : Shape).Idx → EReal) (e : Fin 400000) (r : Fin 21) :
    broadcastInDim S400000x21 ![0, 1] bcast_S400000x1_S400000x21_0_1
      (broadcastInDim S400000x1 ![0] bcast_S400000_S400000x1_0 x) (ix2 e r) = x (ix1 e) := by
  refine (broadcastInDim_apply _ bcast_S400000x1_S400000x21_0_1 _ (ix2 e r) (ix2 e (0 : Fin 1)) (fun a => match a with
    | ⟨0, _⟩ => by show e.val = if (400000 : Nat) = 1 then 0 else e.val; rw [if_neg (by decide)]
    | ⟨1, _⟩ => by show 0 = if (1 : Nat) = 1 then 0 else r.val; rw [if_pos rfl])).trans ?_
  exact broadcastInDim_apply _ bcast_S400000_S400000x1_0 x (ix2 e (0 : Fin 1)) (ix1 e) (fun a => match a with
    | ⟨0, _⟩ => by show e.val = if (400000 : Nat) = 1 then 0 else e.val; rw [if_neg (by decide)])

/-- The radial row extended by the ones column, read at an index. -/
theorem rbf1_apply (x : (⟨2, ![400000, 20]⟩ : Shape).Idx → EReal) (e : Fin 400000) (r : Fin 21) :
    concatenate S400000x21 1
        [⟨S400000x20, x⟩,
         ⟨S400000x1, broadcastInDim S400000x1 ![] bcast_S_S400000x1 (constant (F := Ideal) S_ .f32 0x3F800000#32)⟩]
        concatenates_S400000x20_S400000x1_S400000x21_d1 (ix2 e r)
      = if hr : r.val < 20 then x (ix2 e (⟨r.val, hr⟩ : Fin 20)) else 1 := by
  by_cases hr : r.val < 20
  · rw [dif_pos hr]
    exact concatenate_pair_apply_left (t := S400000x21) (s₁ := S400000x20) (s₂ := S400000x1) (⟨1, by decide⟩ : Fin 2) _ _
      concatenates_S400000x20_S400000x1_S400000x21_d1 (ix2 e r) rfl
      (ix2 e (⟨r.val, hr⟩ : Fin 20)) (fun b => match b with
        | ⟨0, _⟩ => rfl
        | ⟨1, _⟩ => rfl)
  · rw [dif_neg hr]
    refine (concatenate_pair_apply_right (t := S400000x21) (s₁ := S400000x20) (s₂ := S400000x1) (⟨1, by decide⟩ : Fin 2) _ _
      concatenates_S400000x20_S400000x1_S400000x21_d1 (ix2 e r) rfl rfl
      (ix2 e (0 : Fin 1)) (fun b => match b with
        | ⟨0, _⟩ => fun _ => rfl
        | ⟨1, _⟩ => fun hb => absurd rfl hb) (by show 0 + 20 = r.val; omega)).trans ?_
    refine (broadcastInDim_apply _ bcast_S_S400000x1 _ (ix2 e (0 : Fin 1)) ix0 (fun a => a.elim0)).trans ?_
    exact Ideal.ofBits_one_f32

theorem v15_apply (e : Fin 401408) (r : Fin 21) :
    (V m c main_v15 : (⟨2, ![401408, 21]⟩ : Shape).Idx → EReal) (ix2 e r) = augP (argsOf m c) e r := by
  refine (congrFun (v15_eq m c) (ix2 e r)).trans ?_
  unfold augP
  by_cases h : e.val < 400000
  · rw [dif_pos h]
    refine (pad_apply_of_inside _ _ _ _ _ _ _ (ix2 e r) (ix2 (⟨e.val, h⟩ : Fin 400000) r) (fun a => match a with
      | ⟨0, _⟩ => by show e.val = 0 + e.val * (0 + 1); omega
      | ⟨1, _⟩ => by show r.val = 0 + r.val * (0 + 1); omega)).trans ?_
    refine (mulf_apply _ _ _).trans ?_
    rw [rbf1_apply, cutB_apply]
  · rw [dif_neg h]
    refine (pad_apply_of_not_inside _ _ _ _ _ _ _ (ix2 e r) (⟨0, by decide⟩ : Fin 2) ?_).trans padValue_eq
    show ¬(0 ≤ e.val ∧ (e.val - 0) % (0 + 1) = 0 ∧ (e.val - 0) / (0 + 1) < 400000)
    omega

/-! ## The edge list's two rows, each padded by 1408 zero words -/

theorem v12_eq : (V m c main_v12 : (⟨1, ![401408]⟩ : Shape).Idx → BitVec 32)
    = concatenate S401408 0
        [⟨S400000, shapeCast S400000 (extractStridedSlice S1x400000 ![0, 0] (argsOf m c).ei slices_S2x400000_S1x400000_0_0)
            shapeCasts_S1x400000_S400000⟩,
         ⟨S1408, broadcastInDim S1408 ![] bcast_S_S1408 (constantI S_ 32 0#32)⟩]
        concatenates_S400000_S1408_S401408_d0 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- A row of the edge list cut out and flattened, read at an index. -/
theorem row_apply (x : Edges) (w : Fin 2) (hs : (⟨2, ![2, 400000]⟩ : Shape).Slices ![w.val, 0] S1x400000) (e : Fin 400000) :
    shapeCast S400000 (extractStridedSlice S1x400000 ![w.val, 0] x hs) shapeCasts_S1x400000_S400000 (ix1 e) = x (ix2 w e) := by
  refine (shapeCast_apply _ shapeCasts_S1x400000_S400000 (ix1 e) (ix2 (0 : Fin 1) e)
    (by rewrite [Shape.rowMajor_val_two, Shape.rowMajor_val_one]; show 0 * 400000 + e.val = e.val; omega)).trans ?_
  exact extractStridedSlice_apply _ x hs (ix2 (0 : Fin 1) e) (ix2 w e) (fun a => match a with
    | ⟨0, _⟩ => by show w.val = w.val + 0; omega
    | ⟨1, _⟩ => by show e.val = 0 + e.val; omega)

/-- A row of the edge list followed by 1408 zero words, read at an index. -/
theorem rowPad_apply (y : (⟨1, ![400000]⟩ : Shape).Idx → BitVec 32) (e : Fin 401408) :
    concatenate S401408 0 [⟨S400000, y⟩, ⟨S1408, broadcastInDim S1408 ![] bcast_S_S1408 (constantI S_ 32 0#32)⟩]
        concatenates_S400000_S1408_S401408_d0 (ix1 e)
      = if h : e.val < 400000 then y (ix1 (⟨e.val, h⟩ : Fin 400000)) else 0#32 := by
  by_cases h : e.val < 400000
  · rw [dif_pos h]
    exact concatenate_pair_apply_left (t := S401408) (s₁ := S400000) (s₂ := S1408) (⟨0, by decide⟩ : Fin 1) _ _
      concatenates_S400000_S1408_S401408_d0 (ix1 e) rfl (ix1 (⟨e.val, h⟩ : Fin 400000)) (fun b => match b with
        | ⟨0, _⟩ => rfl)
  · rw [dif_neg h]
    refine (concatenate_pair_apply_right (t := S401408) (s₁ := S400000) (s₂ := S1408) (⟨0, by decide⟩ : Fin 1) _ _
      concatenates_S400000_S1408_S401408_d0 (ix1 e) rfl rfl (ix1 (⟨e.val - 400000, by have := e.isLt; omega⟩ : Fin 1408))
      (fun b => match b with
        | ⟨0, _⟩ => fun hb => absurd rfl hb) (by show e.val - 400000 + 400000 = e.val; omega)).trans ?_
    exact broadcastInDim_apply _ bcast_S_S1408 _ _ ix0 (fun a => a.elim0)

theorem v12_apply (e : Fin 401408) :
    (V m c main_v12 : (⟨1, ![401408]⟩ : Shape).Idx → BitVec 32) (ix1 e) = dstWordP (argsOf m c) e := by
  refine (congrFun (v12_eq m c) (ix1 e)).trans ?_
  rw [rowPad_apply]
  unfold dstWordP dstWord
  by_cases h : e.val < 400000
  · rw [dif_pos h, dif_pos h]
    exact row_apply (argsOf m c).ei (0 : Fin 2) slices_S2x400000_S1x400000_0_0 ⟨e.val, h⟩
  · rw [dif_neg h, dif_neg h]

/-! ## The node arrays gathered at the padded source words -/

/-- The padded source words as the operations compose them. -/
def srcV (x : Edges) : (⟨1, ![401408]⟩ : Shape).Idx → BitVec 32 :=
  concatenate S401408 0
    [⟨S400000, shapeCast S400000 (extractStridedSlice S1x400000 ![1, 0] x slices_S2x400000_S1x400000_1_0)
        shapeCasts_S1x400000_S400000⟩,
     ⟨S1408, broadcastInDim S1408 ![] bcast_S_S1408 (constantI S_ 32 0#32)⟩]
    concatenates_S400000_S1408_S401408_d0

/-- The gathers' column of start indices: a negative source word wrapped by the node count. -/
def idxV (x : Edges) : (⟨2, ![401408, 1]⟩ : Shape).Idx → BitVec 32 :=
  broadcastInDim S401408x1 ![0] bcast_S401408_S401408x1_0
    (select (cmpi .slt (srcV x) (broadcastInDim S401408 ![] bcast_S_S401408 (constantI S_ 32 0#32)))
      (addi (srcV x) (broadcastInDim S401408 ![] bcast_S_S401408 (constantI S_ 32 20000#32)))
      (srcV x))

theorem srcV_apply (A : Args) (e : Fin 401408) : srcV A.ei (ix1 e) = srcWordP A e := by
  unfold srcV
  rw [rowPad_apply]
  unfold srcWordP srcWord
  by_cases h : e.val < 400000
  · rw [dif_pos h, dif_pos h]
    exact row_apply A.ei (1 : Fin 2) slices_S2x400000_S1x400000_1_0 ⟨e.val, h⟩
  · rw [dif_neg h, dif_neg h]

theorem idxV_apply (A : Args) (e : Fin 401408) :
    idxV A.ei (ix2 e (0 : Fin 1))
      = Scalar.select (IntOp.cmpi .slt (srcWordP A e) 0#32) (IntOp.addi (srcWordP A e) 20000#32) (srcWordP A e) := by
  unfold idxV
  refine (broadcastInDim_apply _ bcast_S401408_S401408x1_0 _ (ix2 e (0 : Fin 1)) (ix1 e) (fun a => match a with
    | ⟨0, _⟩ => by show e.val = if (401408 : Nat) = 1 then 0 else e.val; rw [if_neg (by decide)])).trans ?_
  have h0 : broadcastInDim S401408 ![] bcast_S_S401408 (constantI S_ 32 0#32) (ix1 e) = 0#32 :=
    broadcastInDim_apply _ bcast_S_S401408 _ (ix1 e) ix0 (fun a => a.elim0)
  have h2 : broadcastInDim S401408 ![] bcast_S_S401408 (constantI S_ 32 20000#32) (ix1 e) = 20000#32 :=
    broadcastInDim_apply _ bcast_S_S401408 _ (ix1 e) ix0 (fun a => a.elim0)
  show Scalar.select (IntOp.cmpi .slt (srcV A.ei (ix1 e)) (broadcastInDim S401408 ![] bcast_S_S401408 (constantI S_ 32 0#32) (ix1 e)))
      (IntOp.addi (srcV A.ei (ix1 e)) (broadcastInDim S401408 ![] bcast_S_S401408 (constantI S_ 32 20000#32) (ix1 e)))
      (srcV A.ei (ix1 e)) = _
  rw [h0, h2, srcV_apply]

/-- The row the gathers read: the start word read signed and clamped is the specification's source row. -/
theorem gatherRow_eq (A : Args) (e : Fin 401408) (hlt : min (idxV A.ei (ix2 e (0 : Fin 1))).toInt.toNat (20000 - 1) < 20000) :
    (⟨min (idxV A.ei (ix2 e (0 : Fin 1))).toInt.toNat (20000 - 1), hlt⟩ : Fin 20000) = srcP A e := by
  refine Fin.ext ?_
  show min (idxV A.ei (ix2 e (0 : Fin 1))).toInt.toNat (20000 - 1)
    = min (Scalar.select (IntOp.cmpi .slt (srcWordP A e) 0#32) (IntOp.addi (srcWordP A e) 20000#32) (srcWordP A e)).toInt.toNat 19999
  rw [idxV_apply]

theorem v26_eq : (V m c main_v26 : (⟨2, ![401408, 128]⟩ : Shape).Idx → EReal)
    = Host.gather gather_S20000x128_S401408x1_S401408x128_1_0_n_n_0_1_1128
        (truncf (F := Ideal) (φ := .f32) .bf16 (argsOf m c).s bitsLt_bf16_f32) (idxV (argsOf m c).ei) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

theorem v26_apply (e : Fin 401408) (a : Fin 128) :
    (V m c main_v26 : (⟨2, ![401408, 128]⟩ : Shape).Idx → EReal) (ix2 e a) = (argsOf m c).s (ix2 (srcP (argsOf m c) e) a) := by
  refine (congrFun (v26_eq m c) (ix2 e a)).trans ?_
  refine (Cert.Rows.gather2_apply (N := 20000) (C := 128) (M := 401408) (by decide)
    gather_S20000x128_S401408x1_S401408x128_1_0_n_n_0_1_1128.wf _ (idxV (argsOf m c).ei) e a).trans ?_
  rw [gatherRow_eq]
  rfl

theorem v33_eq : (V m c main_v33 : (⟨2, ![401408, 384]⟩ : Shape).Idx → EReal)
    = Host.gather gather_S20000x384_S401408x1_S401408x384_1_0_n_n_0_1_1384
        (shapeCast S20000x384 (truncf (F := Ideal) (φ := .f32) .bf16 (argsOf m c).v bitsLt_bf16_f32) shapeCasts_S20000x3x128_S20000x384)
        (idxV (argsOf m c).ei) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

theorem v33_apply (e : Fin 401408) (d : Fin 3) (k : Fin 128) :
    (V m c main_v33 : (⟨2, ![401408, 384]⟩ : Shape).Idx → EReal) (ix2 e (colD d k))
      = (argsOf m c).v (ix3 (srcP (argsOf m c) e) d k) := by
  refine (congrFun (v33_eq m c) (ix2 e (colD d k))).trans ?_
  refine (Cert.Rows.gather2_apply (N := 20000) (C := 384) (M := 401408) (by decide)
    gather_S20000x384_S401408x1_S401408x384_1_0_n_n_0_1_1384.wf _ (idxV (argsOf m c).ei) e (colD d k)).trans ?_
  rw [gatherRow_eq]
  refine (shapeCast_apply _ shapeCasts_S20000x3x128_S20000x384 (ix2 (srcP (argsOf m c) e) (colD d k))
    (ix3 (srcP (argsOf m c) e) d k) ?_).trans rfl
  rewrite [Shape.rowMajor_val_three, Shape.rowMajor_val_two]
  show ((srcP (argsOf m c) e).val * 3 + d.val) * 128 + k.val = (srcP (argsOf m c) e).val * 384 + (128 * d.val + k.val)
  omega

end Cert.KernelIdeal.Pre

end
-- ==== Proof.KernelPay.lean ====
/-
  The kernel body's two results read at an index, as pure functions of the nine blocks it loads.

  With x0 the gathered scalar block, x1 the gathered vector block (three column thirds, one per direction),
  x2 the extended radial block, x3 the direction block, x4, x5 the first layer's weights and bias row,
  x6, x7 the second layer's, and x8 the extended radial weights, a row `p` of the block has
    bpre p k   = Σ_a x0[p, a] · x4[a, k] + x5[0, k]
    bx p c     = (Σ_k (bpre p k · logistic (bpre p k)) · x6[k, c] + x7[0, c]) · (Σ_r x2[p, r] · x8[r, c])
    binner p k = x1[p, k] · x3[p, 0] + x1[p, 128 + k] · x3[p, 1] + x1[p, 256 + k] · x3[p, 2]
  and the body leaves
    first result  [p, k]           = bx p k
    second result [p, 128 · d + k] = (bx p (128 + k) + binner p k · bx p (256 + k)) · x3[p, d].

  The steps: a product into the zero accumulator at an index is the sum over the one contracted coordinate
  (one lemma per product shape); a row bias broadcasts its one row and a direction column its one column; the
  narrowing and widening format changes and the same-shape casts are the identity at the extended reals; a
  column third reads the source at the shifted column. The first result is one covering store of the first
  third. The second is three column slabs that tile the 384 columns, each the combined term times one
  direction column: all three are blocks of ONE function of the output index, which is therefore what the
  block holds at every index.
-/
import proofs.«143102_j71390946394547_2_alg».proof.Proof.Gen.KernelIdeal.Frame
import proofs.«143102_j71390946394547_2_alg».proof.Proof.MsgSpec
import proofs.«143102_j71390946394547_2_alg».proof.Proof.MsgPad
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.Msg Idealize.ShloMosaic Idealize.ShloMosaic.ValueIdx

/-- The product of a `S2048x21` by a `S21x384` block into the zero accumulator, at row `p`, column `c`: the
    sum over the one contracted coordinate. -/
theorem mm21_apply {φ₁ φ₂ : FTy} (l : FVec Ideal S2048x21 φ₁) (r : FVec Ideal S21x384 φ₂) (p : Fin 2048) (c : Fin 384) :
    matmul (F := Ideal) dot_S2048x21_S21x384_S2048x384_1_0_0_1_n_n none l r (constant (F := Ideal) S2048x384 .f32 0x00000000#32) (ix2 p c)
      = ∑ k : Fin 21, l (ix2 p k) * r (ix2 k c) := by
  refine (Ideal.matmul_constant_zero_apply dot_S2048x21_S21x384_S2048x384_1_0_0_1_n_n none l r (ix2 p c)).trans ?_
  rw [← Equiv.sum_comp (contrEquiv1 dot_S2048x21_S21x384_S2048x384_1_0_0_1_n_n 21 rfl rfl).symm]
  refine Finset.sum_congr rfl fun k _ => ?_
  have hk := contrEquiv1_symm_val dot_S2048x21_S21x384_S2048x384_1_0_0_1_n_n 21 rfl rfl k
  have hl0 : ∀ q : dot_S2048x21_S21x384_S2048x384_1_0_0_1_n_n.contr.Idx, (dot_S2048x21_S21x384_S2048x384_1_0_0_1_n_n.lhsIdx (ix2 p c) q 0).val = p.val := fun q => by
    unfold DotDims.lhsIdx
    rw [dif_neg (show ¬(0 : Fin S2048x21.rank) ∈ dot_S2048x21_S21x384_S2048x384_1_0_0_1_n_n.lhsBatch by decide),
      dif_pos (show (0 : Fin S2048x21.rank) ∈ dot_S2048x21_S21x384_S2048x384_1_0_0_1_n_n.lhsNonContracting by decide)]
    rfl
  have hr1 : ∀ q : dot_S2048x21_S21x384_S2048x384_1_0_0_1_n_n.contr.Idx, (dot_S2048x21_S21x384_S2048x384_1_0_0_1_n_n.rhsIdx (ix2 p c) q 1).val = c.val := fun q => by
    unfold DotDims.rhsIdx
    rw [dif_neg (show ¬(1 : Fin S21x384.rank) ∈ dot_S2048x21_S21x384_S2048x384_1_0_0_1_n_n.rhsBatch by decide),
      dif_pos (show (1 : Fin S21x384.rank) ∈ dot_S2048x21_S21x384_S2048x384_1_0_0_1_n_n.rhsNonContracting by decide)]
    rfl
  have el : dot_S2048x21_S21x384_S2048x384_1_0_0_1_n_n.lhsIdx (ix2 p c) ((contrEquiv1 dot_S2048x21_S21x384_S2048x384_1_0_0_1_n_n 21 rfl rfl).symm k) = ix2 p k :=
    funext fun a => Fin.ext (by
      match a with
      | ⟨0, _⟩ => exact hl0 _
      | ⟨1, _⟩ => exact (dot_S2048x21_S21x384_S2048x384_1_0_0_1_n_n.lhsIdx_val_of_single rfl (ix2 p c) _).trans hk)
  have er : dot_S2048x21_S21x384_S2048x384_1_0_0_1_n_n.rhsIdx (ix2 p c) ((contrEquiv1 dot_S2048x21_S21x384_S2048x384_1_0_0_1_n_n 21 rfl rfl).symm k) = ix2 k c :=
    funext fun a => Fin.ext (by
      match a with
      | ⟨0, _⟩ => exact (dot_S2048x21_S21x384_S2048x384_1_0_0_1_n_n.rhsIdx_val_of_single rfl (ix2 p c) _).trans hk
      | ⟨1, _⟩ => exact hr1 _)
  rw [el, er]

/-- The product of a `S2048x128` by a `S128x128` block into the zero accumulator, at row `p`, column `c`: the
    sum over the one contracted coordinate. -/
theorem mm128_apply {φ₁ φ₂ : FTy} (l : FVec Ideal S2048x128 φ₁) (r : FVec Ideal S128x128 φ₂) (p : Fin 2048) (c : Fin 128) :
    matmul (F := Ideal) dot_S2048x128_S128x128_S2048x128_1_0_0_1_n_n none l r (constant (F := Ideal) S2048x128 .f32 0x00000000#32) (ix2 p c)
      = ∑ k : Fin 128, l (ix2 p k) * r (ix2 k c) := by
  refine (Ideal.matmul_constant_zero_apply dot_S2048x128_S128x128_S2048x128_1_0_0_1_n_n none l r (ix2 p c)).trans ?_
  rw [← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have hl0 : ∀ q : dot_S2048x128_S128x128_S2048x128_1_0_0_1_n_n.contr.Idx, (dot_S2048x128_S128x128_S2048x128_1_0_0_1_n_n.lhsIdx (ix2 p c) q 0).val = p.val := fun q => by
    unfold DotDims.lhsIdx
    rw [dif_neg (show ¬(0 : Fin S2048x128.rank) ∈ dot_S2048x128_S128x128_S2048x128_1_0_0_1_n_n.lhsBatch by decide),
      dif_pos (show (0 : Fin S2048x128.rank) ∈ dot_S2048x128_S128x128_S2048x128_1_0_0_1_n_n.lhsNonContracting by decide)]
    rfl
  have hr1 : ∀ q : dot_S2048x128_S128x128_S2048x128_1_0_0_1_n_n.contr.Idx, (dot_S2048x128_S128x128_S2048x128_1_0_0_1_n_n.rhsIdx (ix2 p c) q 1).val = c.val := fun q => by
    unfold DotDims.rhsIdx
    rw [dif_neg (show ¬(1 : Fin S128x128.rank) ∈ dot_S2048x128_S128x128_S2048x128_1_0_0_1_n_n.rhsBatch by decide),
      dif_pos (show (1 : Fin S128x128.rank) ∈ dot_S2048x128_S128x128_S2048x128_1_0_0_1_n_n.rhsNonContracting by decide)]
    rfl
  have el : dot_S2048x128_S128x128_S2048x128_1_0_0_1_n_n.lhsIdx (ix2 p c) ((contrEquiv1 dot_S2048x128_S128x128_S2048x128_1_0_0_1_n_n 128 rfl rfl).symm k) = ix2 p k :=
    funext fun a => Fin.ext (by
      match a with
      | ⟨0, _⟩ => exact hl0 _
      | ⟨1, _⟩ => exact (dot_S2048x128_S128x128_S2048x128_1_0_0_1_n_n.lhsIdx_val_of_single rfl (ix2 p c) _).trans hk)
  have er : dot_S2048x128_S128x128_S2048x128_1_0_0_1_n_n.rhsIdx (ix2 p c) ((contrEquiv1 dot_S2048x128_S128x128_S2048x128_1_0_0_1_n_n 128 rfl rfl).symm k) = ix2 k c :=
    funext fun a => Fin.ext (by
      match a with
      | ⟨0, _⟩ => exact (dot_S2048x128_S128x128_S2048x128_1_0_0_1_n_n.rhsIdx_val_of_single rfl (ix2 p c) _).trans hk
      | ⟨1, _⟩ => exact hr1 _)
  rw [el, er]

/-- The product of a `S2048x128` by a `S128x384` block into the zero accumulator, at row `p`, column `c`: the
    sum over the one contracted coordinate. -/
theorem mm384_apply {φ₁ φ₂ : FTy} (l : FVec Ideal S2048x128 φ₁) (r : FVec Ideal S128x384 φ₂) (p : Fin 2048) (c : Fin 384) :
    matmul (F := Ideal) dot_S2048x128_S128x384_S2048x384_1_0_0_1_n_n none l r (constant (F := Ideal) S2048x384 .f32 0x00000000#32) (ix2 p c)
      = ∑ k : Fin 128, l (ix2 p k) * r (ix2 k c) := by
  refine (Ideal.matmul_constant_zero_apply dot_S2048x128_S128x384_S2048x384_1_0_0_1_n_n none l r (ix2 p c)).trans ?_
  rw [← Equiv.sum_comp (contrEquiv1 dot_S2048x128_S128x384_S2048x384_1_0_0_1_n_n 128 rfl rfl).symm]
  refine Finset.sum_congr rfl fun k _ => ?_
  have hk := contrEquiv1_symm_val dot_S2048x128_S128x384_S2048x384_1_0_0_1_n_n 128 rfl rfl k
  have hl0 : ∀ q : dot_S2048x128_S128x384_S2048x384_1_0_0_1_n_n.contr.Idx, (dot_S2048x128_S128x384_S2048x384_1_0_0_1_n_n.lhsIdx (ix2 p c) q 0).val = p.val := fun q => by
    unfold DotDims.lhsIdx
    rw [dif_neg (show ¬(0 : Fin S2048x128.rank) ∈ dot_S2048x128_S128x384_S2048x384_1_0_0_1_n_n.lhsBatch by decide),
      dif_pos (show (0 : Fin S2048x128.rank) ∈ dot_S2048x128_S128x384_S2048x384_1_0_0_1_n_n.lhsNonContracting by decide)]
    rfl
  have hr1 : ∀ q : dot_S2048x128_S128x384_S2048x384_1_0_0_1_n_n.contr.Idx, (dot_S2048x128_S128x384_S2048x384_1_0_0_1_n_n.rhsIdx (ix2 p c) q 1).val = c.val := fun q => by
    unfold DotDims.rhsIdx
    rw [dif_neg (show ¬(1 : Fin S128x384.rank) ∈ dot_S2048x128_S128x384_S2048x384_1_0_0_1_n_n.rhsBatch by decide),
      dif_pos (show (1 : Fin S128x384.rank) ∈ dot_S2048x128_S128x384_S2048x384_1_0_0_1_n_n.rhsNonContracting by decide)]
    rfl
  have el : dot_S2048x128_S128x384_S2048x384_1_0_0_1_n_n.lhsIdx (ix2 p c) ((contrEquiv1 dot_S2048x128_S128x384_S2048x384_1_0_0_1_n_n 128 rfl rfl).symm k) = ix2 p k :=
    funext fun a => Fin.ext (by
      match a with
      | ⟨0, _⟩ => exact hl0 _
      | ⟨1, _⟩ => exact (dot_S2048x128_S128x384_S2048x384_1_0_0_1_n_n.lhsIdx_val_of_single rfl (ix2 p c) _).trans hk)
  have er : dot_S2048x128_S128x384_S2048x384_1_0_0_1_n_n.rhsIdx (ix2 p c) ((contrEquiv1 dot_S2048x128_S128x384_S2048x384_1_0_0_1_n_n 128 rfl rfl).symm k) = ix2 k c :=
    funext fun a => Fin.ext (by
      match a with
      | ⟨0, _⟩ => exact (dot_S2048x128_S128x384_S2048x384_1_0_0_1_n_n.rhsIdx_val_of_single rfl (ix2 p c) _).trans hk
      | ⟨1, _⟩ => exact hr1 _)
  rw [el, er]

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first linear layer on a block row, with its bias. -/
def bpre (x0 : Arr2 2048 128) (x4 : Arr2 128 128) (x5 : Arr2 1 128) (p : Fin 2048) (k : Fin 128) : EReal :=
  (∑ a : Fin 128, x0 (ix2 p a) * x4 (ix2 a k)) + x5 (ix2 (0 : Fin 1) k)

/-- The gated features of a block row: the second linear layer on the activation `x · logistic x`, with its
    bias, times the 21-term radial product sum. -/
def bx (x0 : Arr2 2048 128) (x2 : Arr2 2048 21) (x4 : Arr2 128 128) (x5 : Arr2 1 128) (x6 : Arr2 128 384)
    (x7 : Arr2 1 384) (x8 : Arr2 21 384) (p : Fin 2048) (c : Fin 384) : EReal :=
  ((∑ k : Fin 128, (bpre x0 x4 x5 p k * Ideal.logistic (bpre x0 x4 x5 p k)) * x6 (ix2 k c)) + x7 (ix2 (0 : Fin 1) c))
    * (∑ r : Fin 21, x2 (ix2 p r) * x8 (ix2 r c))

/-- The gathered vector features of a block row projected on the row's direction. -/
def binner (x1 : Arr2 2048 384) (x3 : Arr2 2048 3) (p : Fin 2048) (k : Fin 128) : EReal :=
  x1 (ix2 p (colD 0 k)) * x3 (ix2 p (0 : Fin 3)) + x1 (ix2 p (colD 1 k)) * x3 (ix2 p (1 : Fin 3))
    + x1 (ix2 p (colD 2 k)) * x3 (ix2 p (2 : Fin 3))

/-- The first linear layer of the body at `(p, k)`: the 128-term product sum plus the bias row. -/
theorem pre_apply (v0 : FVec Ideal S2048x128 .bf16) (v9 : Vec Ideal S128x128 .f32) (v11 : Vec Ideal S1x128 .f32)
    (p : Fin 2048) (k : Fin 128) :
    addf (matmul (F := Ideal) dot_S2048x128_S128x128_S2048x128_1_0_0_1_n_n none v0 (truncf .bf16 v9 bitsLt_bf16_f32)
        (constant (F := Ideal) S2048x128 .f32 0x00000000#32))
      (broadcastTo S2048x128 v11 broadcasts_S1x128_S2048x128) (ix2 p k) = bpre v0 v9 v11 p k :=
  (addf_apply _ _ (ix2 p k)).trans
    (congrArg₂ (· + ·) (mm128_apply v0 (truncf .bf16 v9 bitsLt_bf16_f32) p k)
      (broadcastTo_1b_ab_apply v11 broadcasts_S1x128_S2048x128 p k))

/-- The activation `w · logistic w`, narrowed, at an index. -/
theorem hid_apply (w : FVec Ideal S2048x128 .f32) (i : S2048x128.Idx) :
    truncf .bf16 (mulf w (logistic w)) bitsLt_bf16_f32 i = w i * Ideal.logistic (w i) := rfl

/-- The body's whole arithmetic at `(p, c)`: the gated feature `bx` of the blocks it read. -/
theorem pay7_apply (v0 : Vec Ideal S2048x128 .bf16) (v5 : Vec Ideal S2048x21 .f32) (v9 : Vec Ideal S128x128 .f32)
    (v11 : Vec Ideal S1x128 .f32) (v13 : Vec Ideal S128x384 .f32) (v15 : Vec Ideal S1x384 .f32)
    (v17 : Vec Ideal S21x384 .f32) (p : Fin 2048) (c : Fin 384) :
    k0_pay7 (F := Ideal) v0 v5 v9 v11 v13 v15 v17 (ix2 p c) = bx v0 v5 v9 v11 v13 v15 v17 p c := by
  unfold k0_pay7
  simp only [shapeCast_self]
  refine (mulf_apply _ _ (ix2 p c)).trans ?_
  refine (congrArg₂ (· * ·)
    ((addf_apply _ _ (ix2 p c)).trans
      (congrArg₂ (· + ·) (mm384_apply _ _ p c) (broadcastTo_1b_ab_apply v15 broadcasts_S1x384_S2048x384 p c)))
    (mm21_apply _ _ p c)).trans ?_
  unfold bx
  refine congrArg₂ (· * ·) (congrArg₂ (· + ·) (Finset.sum_congr rfl fun k _ => ?_) rfl) rfl
  refine congrArg₂ (· * ·) ?_ rfl
  exact (hid_apply _ (ix2 p k)).trans (congrArg (fun t => t * Ideal.logistic t) (pre_apply v0 v9 v11 p k))

/-- The combined vector term at `(p, k)`: the middle third plus the gathered block's projection on the three
    direction columns times the last third. -/
theorem pay1_apply (v4 : FVec Ideal S2048x384 .f32) (v33 v34 : FVec Ideal S2048x128 .f32)
    (v35 v36 v37 : FVec Ideal S2048x1 .f32) (p : Fin 2048) (k : Fin 128) :
    k0_pay1 (F := Ideal) v4 v33 v34 v35 v36 v37 (ix2 p k)
      = v33 (ix2 p k) + (v4 (ix2 p (colD 0 k)) * v35 (ix2 p (0 : Fin 1)) + v4 (ix2 p (colD 1 k)) * v36 (ix2 p (0 : Fin 1))
          + v4 (ix2 p (colD 2 k)) * v37 (ix2 p (0 : Fin 1))) * v34 (ix2 p k) := by
  unfold k0_pay1
  have s0 := slice2_axis1_apply 0 v4 slices_S2048x384_o0_0_S2048x128 p k (colD 0 k)
    (by show 128 * 0 + k.val = 0 + k.val; omega)
  have s1 := slice2_axis1_apply 128 v4 slices_S2048x384_o0_128_S2048x128 p k (colD 1 k)
    (by show 128 * 1 + k.val = 128 + k.val; omega)
  have s2 := slice2_axis1_apply 256 v4 slices_S2048x384_o0_256_S2048x128 p k (colD 2 k)
    (by show 128 * 2 + k.val = 256 + k.val; omega)
  have b0 := broadcastTo_a1_ab_apply v35 broadcasts_S2048x1_S2048x128 p k
  have b1 := broadcastTo_a1_ab_apply v36 broadcasts_S2048x1_S2048x128 p k
  have b2 := broadcastTo_a1_ab_apply v37 broadcasts_S2048x1_S2048x128 p k
  simp only [addf_apply, mulf_apply]
  rw [s0, s1, s2, b0, b1, b2]

/-- Each stored slab is the combined term times one direction column. -/
theorem pay2_apply (v4 : FVec Ideal S2048x384 .f32) (v33 v34 : FVec Ideal S2048x128 .f32)
    (v35 v36 v37 : FVec Ideal S2048x1 .f32) (p : Fin 2048) (k : Fin 128) :
    k0_pay2 (F := Ideal) v4 v33 v34 v35 v36 v37 (ix2 p k)
      = k0_pay1 (F := Ideal) v4 v33 v34 v35 v36 v37 (ix2 p k) * v35 (ix2 p (0 : Fin 1)) := by
  unfold k0_pay2
  exact (mulf_apply _ _ _).trans (congrArg₂ (· * ·) rfl (broadcastTo_a1_ab_apply v35 broadcasts_S2048x1_S2048x128 p k))

theorem pay3_apply (v4 : FVec Ideal S2048x384 .f32) (v33 v34 : FVec Ideal S2048x128 .f32)
    (v35 v36 v37 : FVec Ideal S2048x1 .f32) (p : Fin 2048) (k : Fin 128) :
    k0_pay3 (F := Ideal) v4 v33 v34 v35 v36 v37 (ix2 p k)
      = k0_pay1 (F := Ideal) v4 v33 v34 v35 v36 v37 (ix2 p k) * v36 (ix2 p (0 : Fin 1)) := by
  unfold k0_pay3
  exact (mulf_apply _ _ _).trans (congrArg₂ (· * ·) rfl (broadcastTo_a1_ab_apply v36 broadcasts_S2048x1_S2048x128 p k))

theorem pay4_apply (v4 : FVec Ideal S2048x384 .f32) (v33 v34 : FVec Ideal S2048x128 .f32)
    (v35 v36 v37 : FVec Ideal S2048x1 .f32) (p : Fin 2048) (k : Fin 128) :
    k0_pay4 (F := Ideal) v4 v33 v34 v35 v36 v37 (ix2 p k)
      = k0_pay1 (F := Ideal) v4 v33 v34 v35 v36 v37 (ix2 p k) * v37 (ix2 p (0 : Fin 1)) := by
  unfold k0_pay4
  exact (mulf_apply _ _ _).trans (congrArg₂ (· * ·) rfl (broadcastTo_a1_ab_apply v37 broadcasts_S2048x1_S2048x128 p k))

/-- The widened gathered block is the block. -/
theorem pay5_apply (v2 : Vec Ideal S2048x384 .bf16) (i : S2048x384.Idx) : k0_pay5 (F := Ideal) v2 i = v2 i := by
  unfold k0_pay5
  simp only [shapeCast_self]
  rfl

/-- The middle and last column thirds of the arithmetic. -/
theorem pay9_apply (v0 : Vec Ideal S2048x128 .bf16) (v5 : Vec Ideal S2048x21 .f32) (v9 : Vec Ideal S128x128 .f32)
    (v11 : Vec Ideal S1x128 .f32) (v13 : Vec Ideal S128x384 .f32) (v15 : Vec Ideal S1x384 .f32)
    (v17 : Vec Ideal S21x384 .f32) (p : Fin 2048) (k : Fin 128) :
    k0_pay9 (F := Ideal) v0 v5 v9 v11 v13 v15 v17 (ix2 p k) = bx v0 v5 v9 v11 v13 v15 v17 p (col1 k) := by
  unfold k0_pay9
  exact (slice2_axis1_apply 128 _ slices_S2048x384_o0_128_S2048x128 p k (col1 k) rfl).trans
    (pay7_apply v0 v5 v9 v11 v13 v15 v17 p (col1 k))

theorem pay10_apply (v0 : Vec Ideal S2048x128 .bf16) (v5 : Vec Ideal S2048x21 .f32) (v9 : Vec Ideal S128x128 .f32)
    (v11 : Vec Ideal S1x128 .f32) (v13 : Vec Ideal S128x384 .f32) (v15 : Vec Ideal S1x384 .f32)
    (v17 : Vec Ideal S21x384 .f32) (p : Fin 2048) (k : Fin 128) :
    k0_pay10 (F := Ideal) v0 v5 v9 v11 v13 v15 v17 (ix2 p k) = bx v0 v5 v9 v11 v13 v15 v17 p (col2 k) := by
  unfold k0_pay10
  exact (slice2_axis1_apply 256 _ slices_S2048x384_o0_256_S2048x128 p k (col2 k) rfl).trans
    (pay7_apply v0 v5 v9 v11 v13 v15 v17 p (col2 k))

/-- The three columns of the direction block. -/
theorem pay11_apply (v7 : Vec Ideal S2048x3 .f32) (p : Fin 2048) :
    k0_pay11 (F := Ideal) v7 (ix2 p (0 : Fin 1)) = v7 (ix2 p (0 : Fin 3)) := by
  unfold k0_pay11 k0_pay6
  simp only [shapeCast_self]
  exact slice2_axis1_apply 0 v7 slices_S2048x3_o0_0_S2048x1 p (0 : Fin 1) (0 : Fin 3) rfl

theorem pay12_apply (v7 : Vec Ideal S2048x3 .f32) (p : Fin 2048) :
    k0_pay12 (F := Ideal) v7 (ix2 p (0 : Fin 1)) = v7 (ix2 p (1 : Fin 3)) := by
  unfold k0_pay12 k0_pay6
  simp only [shapeCast_self]
  exact slice2_axis1_apply 1 v7 slices_S2048x3_o0_1_S2048x1 p (0 : Fin 1) (1 : Fin 3) rfl

theorem pay13_apply (v7 : Vec Ideal S2048x3 .f32) (p : Fin 2048) :
    k0_pay13 (F := Ideal) v7 (ix2 p (0 : Fin 1)) = v7 (ix2 p (2 : Fin 3)) := by
  unfold k0_pay13 k0_pay6
  simp only [shapeCast_self]
  exact slice2_axis1_apply 2 v7 slices_S2048x3_o0_2_S2048x1 p (0 : Fin 1) (2 : Fin 3) rfl

/-- The vector result of a block row, by direction and feature. -/
def dvB (x0 : Arr2 2048 128) (x1 : Arr2 2048 384) (x2 : Arr2 2048 21) (x3 : Arr2 2048 3) (x4 : Arr2 128 128)
    (x5 : Arr2 1 128) (x6 : Arr2 128 384) (x7 : Arr2 1 384) (x8 : Arr2 21 384)
    (p : Fin 2048) (d : Fin 3) (k : Fin 128) : EReal :=
  (bx x0 x2 x4 x5 x6 x7 x8 p (col1 k) + binner x1 x3 p k * bx x0 x2 x4 x5 x6 x7 x8 p (col2 k)) * x3 (ix2 p d)

/-- The row, direction and feature of an index of the 384-wide output block. -/
def rowOf (y : S2048x384.Idx) : Fin 2048 := ⟨(y 0).val, idx2_lt0 y⟩
def dirOf (y : S2048x384.Idx) : Fin 3 := ⟨(y 1).val / 128, by have := idx2_lt1 y; omega⟩
def featOf (y : S2048x384.Idx) : Fin 128 := ⟨(y 1).val % 128, Nat.mod_lt _ (by omega)⟩

/-- The vector result as ONE function of the output block's index. -/
def dvG (x0 : Arr2 2048 128) (x1 : Arr2 2048 384) (x2 : Arr2 2048 21) (x3 : Arr2 2048 3) (x4 : Arr2 128 128)
    (x5 : Arr2 1 128) (x6 : Arr2 128 384) (x7 : Arr2 1 384) (x8 : Arr2 21 384) (y : S2048x384.Idx) : EReal :=
  dvB x0 x1 x2 x3 x4 x5 x6 x7 x8 (rowOf y) (dirOf y) (featOf y)

theorem dvG_colD (x0 : Arr2 2048 128) (x1 : Arr2 2048 384) (x2 : Arr2 2048 21) (x3 : Arr2 2048 3) (x4 : Arr2 128 128)
    (x5 : Arr2 1 128) (x6 : Arr2 128 384) (x7 : Arr2 1 384) (x8 : Arr2 21 384)
    (p : Fin 2048) (d : Fin 3) (k : Fin 128) :
    dvG x0 x1 x2 x3 x4 x5 x6 x7 x8 (ix2 p (colD d k)) = dvB x0 x1 x2 x3 x4 x5 x6 x7 x8 p d k := by
  unfold dvG
  have e1 : dirOf (ix2 p (colD d k)) = d :=
    Fin.ext (by show (128 * d.val + k.val) / 128 = d.val; have := k.isLt; omega)
  have e2 : featOf (ix2 p (colD d k)) = k :=
    Fin.ext (by show (128 * d.val + k.val) % 128 = k.val; have := k.isLt; omega)
  rw [e1, e2]
  rfl

/-- Where each slab's local index sits in the output block: slab `d` holds the columns `128·d + k`. -/
theorem emb_r9 (a : Fin 2048) (b : Fin 128) : (r0_9 : Rect S2048x384).emb (ix2 a b) = ix2 a (colD 0 b) :=
  funext fun ax => Fin.ext (by
    match ax with
    | ⟨0, _⟩ => show 0 + 1 * a.val = a.val; omega
    | ⟨1, _⟩ => show 0 + 1 * b.val = 128 * 0 + b.val; omega)
theorem emb_r10 (a : Fin 2048) (b : Fin 128) : (r0_10 : Rect S2048x384).emb (ix2 a b) = ix2 a (colD 1 b) :=
  funext fun ax => Fin.ext (by
    match ax with
    | ⟨0, _⟩ => show 0 + 1 * a.val = a.val; omega
    | ⟨1, _⟩ => show 128 + 1 * b.val = 128 * 1 + b.val; omega)
theorem emb_r11 (a : Fin 2048) (b : Fin 128) : (r0_11 : Rect S2048x384).emb (ix2 a b) = ix2 a (colD 2 b) :=
  funext fun ax => Fin.ext (by
    match ax with
    | ⟨0, _⟩ => show 0 + 1 * a.val = a.val; omega
    | ⟨1, _⟩ => show 256 + 1 * b.val = 128 * 2 + b.val; omega)

/-- The zero offsets of a whole-block access. -/
theorem hz2 : (![0, 0] : Fin 2 → Nat) = fun _ => 0 := funext fun a => by fin_cases a <;> rfl

section Out

variable (x0 : Vec Ideal S2048x128 .bf16) (x1 : Vec Ideal S2048x384 .bf16) (x2 : Vec Ideal S2048x21 .f32)
  (x3 : Vec Ideal S2048x3 .f32) (x4 : Vec Ideal S128x128 .f32) (x5 : Vec Ideal S1x128 .f32)
  (x6 : Vec Ideal S128x384 .f32) (x7 : Vec Ideal S1x384 .f32) (x8 : Vec Ideal S21x384 .f32)

/-- The first result at `(p, k)`: the first column third of the gated features. -/
theorem out9_apply (p : Fin 2048) (k : Fin 128) :
    Gen.out0_9 (F := Ideal) x0 x1 x2 x3 x4 x5 x6 x7 x8 (ix2 p k) = bx x0 x2 x4 x5 x6 x7 x8 p (col0 k) := by
  unfold Gen.out0_9
  rw [View.canon_unit_zero hz2]
  simp only [View.ld_unit_zero (S := S2048x128) hz2, View.ld_unit_zero (S := S2048x384) hz2,
    View.ld_unit_zero (S := S2048x21) hz2, View.ld_unit_zero (S := S2048x3) hz2,
    View.ld_unit_zero (S := S128x128) hz2, View.ld_unit_zero (S := S1x128) hz2,
    View.ld_unit_zero (S := S128x384) hz2, View.ld_unit_zero (S := S1x384) hz2,
    View.ld_unit_zero (S := S21x384) hz2]
  unfold k0_pay8
  refine (slice2_axis1_apply 0 _ slices_S2048x384_o0_0_S2048x128 p k (col0 k) (by show k.val = 0 + k.val; omega)).trans ?_
  exact pay7_apply x0 x2 x4 x5 x6 x7 x8 p (col0 k)

/-- The combined vector term over the blocks the body read. -/
theorem pay1_blk (p : Fin 2048) (k : Fin 128) :
    k0_pay1 (F := Ideal) (k0_pay5 x1) (k0_pay9 x0 x2 x4 x5 x6 x7 x8) (k0_pay10 x0 x2 x4 x5 x6 x7 x8)
        (k0_pay11 x3) (k0_pay12 x3) (k0_pay13 x3) (ix2 p k)
      = bx x0 x2 x4 x5 x6 x7 x8 p (col1 k) + binner x1 x3 p k * bx x0 x2 x4 x5 x6 x7 x8 p (col2 k) := by
  rw [pay1_apply, pay9_apply, pay10_apply, pay11_apply, pay12_apply, pay13_apply, pay5_apply, pay5_apply, pay5_apply]
  rfl

/-- The second result at column `128 · d + k`: the combined vector term times direction column `d`. -/
theorem out10_apply (p : Fin 2048) (d : Fin 3) (k : Fin 128) :
    Gen.out0_10 (F := Ideal) x0 x1 x2 x3 x4 x5 x6 x7 x8 (ix2 p (colD d k))
      = (bx x0 x2 x4 x5 x6 x7 x8 p (col1 k) + binner x1 x3 p k * bx x0 x2 x4 x5 x6 x7 x8 p (col2 k)) * x3 (ix2 p d) := by
  unfold Gen.out0_10
  simp only [View.ld_unit_zero (S := S2048x128) hz2, View.ld_unit_zero (S := S2048x384) hz2,
    View.ld_unit_zero (S := S2048x21) hz2, View.ld_unit_zero (S := S2048x3) hz2,
    View.ld_unit_zero (S := S128x128) hz2, View.ld_unit_zero (S := S1x128) hz2,
    View.ld_unit_zero (S := S128x384) hz2, View.ld_unit_zero (S := S1x384) hz2,
    View.ld_unit_zero (S := S21x384) hz2]
  refine (View.canon_apply_of_pieces (dvG x0 x1 x2 x3 x4 x5 x6 x7 x8) _ ?_ (ix2 p (colD d k))
    (Gen.cover0_10 _ _ _ _)).trans (dvG_colD x0 x1 x2 x3 x4 x5 x6 x7 x8 p d k)
  intro pc hpc x
  rcases List.mem_cons.mp hpc with rfl | hpc
  · obtain ⟨a, b, rfl⟩ : ∃ a b, x = ix2 a b := ⟨x 0, x 1, eq_ix2 x⟩
    refine (pay4_apply _ _ _ _ _ _ a b).trans ?_
    rw [pay1_blk, pay13_apply]
    exact ((congrArg (dvG x0 x1 x2 x3 x4 x5 x6 x7 x8) (emb_r11 a b)).trans
      (dvG_colD x0 x1 x2 x3 x4 x5 x6 x7 x8 a 2 b)).symm
  rcases List.mem_cons.mp hpc with rfl | hpc
  · obtain ⟨a, b, rfl⟩ : ∃ a b, x = ix2 a b := ⟨x 0, x 1, eq_ix2 x⟩
    refine (pay3_apply _ _ _ _ _ _ a b).trans ?_
    rw [pay1_blk, pay12_apply]
    exact ((congrArg (dvG x0 x1 x2 x3 x4 x5 x6 x7 x8) (emb_r10 a b)).trans
      (dvG_colD x0 x1 x2 x3 x4 x5 x6 x7 x8 a 1 b)).symm
  obtain rfl := List.mem_singleton.mp hpc
  obtain ⟨a, b, rfl⟩ : ∃ a b, x = ix2 a b := ⟨x 0, x 1, eq_ix2 x⟩
  refine (pay2_apply _ _ _ _ _ _ a b).trans ?_
  rw [pay1_blk, pay11_apply]
  exact ((congrArg (dvG x0 x1 x2 x3 x4 x5 x6 x7 x8) (emb_r9 a b)).trans
    (dvG_colD x0 x1 x2 x3 x4 x5 x6 x7 x8 a 0 b)).symm

end Out

end Cert.KernelIdeal.Pay

end
-- ==== Proof.KernelArr.lean ====
/-
  The kernel's two output arrays after its region.

  Each of the 196 grid points stages rows `2048 t … 2048 t + 2047` of the four edge-row arrays (gathered
  scalars, gathered vectors, extended radial rows, directions) and the five weight arrays whole, and
  writes back rows `2048 t …` of the two outputs. Row `p` of the blocks at point `t` is padded edge
  `2048 t + p`; so what a point writes back is a block of ONE whole-array function — the per-edge scalar
  features `dsEdge` and the per-edge vector features `dvEdge` of the padded edge list — and since the
  row blocks cover the arrays, the arrays end holding those functions.
-/
import proofs.«143102_j71390946394547_2_alg».proof.Proof.Gen.KernelIdeal.Frame
import proofs.«143102_j71390946394547_2_alg».proof.Proof.MsgPad
import proofs.«143102_j71390946394547_2_alg».proof.Proof.MsgArgs
import proofs.«143102_j71390946394547_2_alg».proof.Proof.KernelPre
import proofs.«143102_j71390946394547_2_alg».proof.Proof.KernelPay
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Arr

open Cert.Msg Cert.KernelIdeal Cert.KernelIdeal.Gen

variable (m : (ℓ : Loc nD τ sig) → Buf (Elt Ideal) ℓ) (ρ : Dev nD → PrngReg)

/-- The block index maps over the 196 grid points: the four edge-row windows and the two output windows take block
    `t` of the rows at point `t`; the five weight windows stay at block 0. -/
theorem idx_moving : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem idx_fixed : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `p` of the block of point `t` is padded edge `2048 · t + p`. -/
def edgeOf (t : Fin cfg0.N) (p : Fin 2048) : Fin 401408 :=
  ⟨2048 * t.val + p.val, by have h := t.isLt; have hN : cfg0.N = 196 := N_0; have hp := p.isLt; omega⟩

/-- The gathered scalar block at point `t` is rows `2048 t …` of its array. -/
theorem blk0 (c : Dev nD) (t : Fin cfg0.N) (p : Fin 2048) (a : Fin 128) :
    (iblk m c 0 t : Vec Ideal S2048x128 .bf16) (ix2 p a)
      = (V m c main_v26 : (⟨2, ![401408, 128]⟩ : Shape).Idx → EReal) (ix2 (edgeOf t p) a) := by
  obtain ⟨h0, h1, -⟩ := idx_moving t
  unfold iblk
  rw [View.read_apply]
  show V m c main_v26 _ = V m c main_v26 _
  refine congrArg (V m c main_v26) ?_
  funext b
  apply Fin.ext
  match b with
  | ⟨0, _⟩ => show win0_0.index t (0 : Fin 2) * 2048 + 1 * p.val = 2048 * t.val + p.val; rw [h0]; omega
  | ⟨1, _⟩ => show win0_0.index t (1 : Fin 2) * 128 + 1 * a.val = a.val; rw [h1]; omega

/-- The gathered vector block at point `t` is rows `2048 t …` of its array. -/
theorem blk1 (c : Dev nD) (t : Fin cfg0.N) (p : Fin 2048) (a : Fin 384) :
    (iblk m c 1 t : Vec Ideal S2048x384 .bf16) (ix2 p a)
      = (V m c main_v33 : (⟨2, ![401408, 384]⟩ : Shape).Idx → EReal) (ix2 (edgeOf t p) a) := by
  obtain ⟨-, -, h0, h1, -⟩ := idx_moving t
  unfold iblk
  rw [View.read_apply]
  show V m c main_v33 _ = V m c main_v33 _
  refine congrArg (V m c main_v33) ?_
  funext b
  apply Fin.ext
  match b with
  | ⟨0, _⟩ => show win0_1.index t (0 : Fin 2) * 2048 + 1 * p.val = 2048 * t.val + p.val; rw [h0]; omega
  | ⟨1, _⟩ => show win0_1.index t (1 : Fin 2) * 384 + 1 * a.val = a.val; rw [h1]; omega

/-- The extended radial block at point `t` is rows `2048 t …` of its array. -/
theorem blk2 (c : Dev nD) (t : Fin cfg0.N) (p : Fin 2048) (a : Fin 21) :
    (iblk m c 2 t : Vec Ideal S2048x21 .f32) (ix2 p a)
      = (V m c main_v15 : (⟨2, ![401408, 21]⟩ : Shape).Idx → EReal) (ix2 (edgeOf t p) a) := by
  obtain ⟨-, -, -, -, h0, h1, -⟩ := idx_moving t
  unfold iblk
  rw [View.read_apply]
  show V m c main_v15 _ = V m c main_v15 _
  refine congrArg (V m c main_v15) ?_
  funext b
  apply Fin.ext
  match b with
  | ⟨0, _⟩ => show win0_2.index t (0 : Fin 2) * 2048 + 1 * p.val = 2048 * t.val + p.val; rw [h0]; omega
  | ⟨1, _⟩ => show win0_2.index t (1 : Fin 2) * 21 + 1 * a.val = a.val; rw [h1]; omega

/-- The direction block at point `t` is rows `2048 t …` of its array. -/
theorem blk3 (c : Dev nD) (t : Fin cfg0.N) (p : Fin 2048) (a : Fin 3) :
    (iblk m c 3 t : Vec Ideal S2048x3 .f32) (ix2 p a)
      = (V m c main_v16 : (⟨2, ![401408, 3]⟩ : Shape).Idx → EReal) (ix2 (edgeOf t p) a) := by
  obtain ⟨-, -, -, -, -, -, h0, h1, -⟩ := idx_moving t
  unfold iblk
  rw [View.read_apply]
  show V m c main_v16 _ = V m c main_v16 _
  refine congrArg (V m c main_v16) ?_
  funext b
  apply Fin.ext
  match b with
  | ⟨0, _⟩ => show win0_3.index t (0 : Fin 2) * 2048 + 1 * p.val = 2048 * t.val + p.val; rw [h0]; omega
  | ⟨1, _⟩ => show win0_3.index t (1 : Fin 2) * 3 + 1 * a.val = a.val; rw [h1]; omega

/-- A weight window's block at every point is its whole array. -/
theorem blk4 (c : Dev nD) (t : Fin cfg0.N) (a : Fin 128) (k : Fin 128) :
    (iblk m c 4 t : Vec Ideal S128x128 .f32) (ix2 a k)
      = (V m c main_arg5 : (⟨2, ![128, 128]⟩ : Shape).Idx → EReal) (ix2 a k) := by
  obtain ⟨h0, h1, -⟩ := idx_fixed t
  unfold iblk
  rw [View.read_apply]
  show V m c main_arg5 _ = V m c main_arg5 _
  refine congrArg (V m c main_arg5) ?_
  funext b
  apply Fin.ext
  match b with
  | ⟨0, _⟩ => show win0_4.index t (0 : Fin 2) * 128 + 1 * a.val = a.val; rw [h0]; omega
  | ⟨1, _⟩ => show win0_4.index t (1 : Fin 2) * 128 + 1 * k.val = k.val; rw [h1]; omega

/-- A weight window's block at every point is its whole array. -/
theorem blk5 (c : Dev nD) (t : Fin cfg0.N) (a : Fin 1) (k : Fin 128) :
    (iblk m c 5 t : Vec Ideal S1x128 .f32) (ix2 a k)
      = (V m c main_v34 : (⟨2, ![1, 128]⟩ : Shape).Idx → EReal) (ix2 a k) := by
  obtain ⟨-, -, h0, h1, -⟩ := idx_fixed t
  unfold iblk
  rw [View.read_apply]
  show V m c main_v34 _ = V m c main_v34 _
  refine congrArg (V m c main_v34) ?_
  funext b
  apply Fin.ext
  match b with
  | ⟨0, _⟩ => show win0_5.index t (0 : Fin 2) * 1 + 1 * a.val = a.val; rw [h0]; omega
  | ⟨1, _⟩ => show win0_5.index t (1 : Fin 2) * 128 + 1 * k.val = k.val; rw [h1]; omega

/-- A weight window's block at every point is its whole array. -/
theorem blk6 (c : Dev nD) (t : Fin cfg0.N) (a : Fin 128) (k : Fin 384) :
    (iblk m c 6 t : Vec Ideal S128x384 .f32) (ix2 a k)
      = (V m c main_arg7 : (⟨2, ![128, 384]⟩ : Shape).Idx → EReal) (ix2 a k) := by
  obtain ⟨-, -, -, -, h0, h1, -⟩ := idx_fixed t
  unfold iblk
  rw [View.read_apply]
  show V m c main_arg7 _ = V m c main_arg7 _
  refine congrArg (V m c main_arg7) ?_
  funext b
  apply Fin.ext
  match b with
  | ⟨0, _⟩ => show win0_6.index t (0 : Fin 2) * 128 + 1 * a.val = a.val; rw [h0]; omega
  | ⟨1, _⟩ => show win0_6.index t (1 : Fin 2) * 384 + 1 * k.val = k.val; rw [h1]; omega

/-- A weight window's block at every point is its whole array. -/
theorem blk7 (c : Dev nD) (t : Fin cfg0.N) (a : Fin 1) (k : Fin 384) :
    (iblk m c 7 t : Vec Ideal S1x384 .f32) (ix2 a k)
      = (V m c main_v35 : (⟨2, ![1, 384]⟩ : Shape).Idx → EReal) (ix2 a k) := by
  obtain ⟨-, -, -, -, -, -, h0, h1, -⟩ := idx_fixed t
  unfold iblk
  rw [View.read_apply]
  show V m c main_v35 _ = V m c main_v35 _
  refine congrArg (V m c main_v35) ?_
  funext b
  apply Fin.ext
  match b with
  | ⟨0, _⟩ => show win0_7.index t (0 : Fin 2) * 1 + 1 * a.val = a.val; rw [h0]; omega
  | ⟨1, _⟩ => show win0_7.index t (1 : Fin 2) * 384 + 1 * k.val = k.val; rw [h1]; omega

/-- A weight window's block at every point is its whole array. -/
theorem blk8 (c : Dev nD) (t : Fin cfg0.N) (a : Fin 21) (k : Fin 384) :
    (iblk m c 8 t : Vec Ideal S21x384 .f32) (ix2 a k)
      = (V m c main_v10 : (⟨2, ![21, 384]⟩ : Shape).Idx → EReal) (ix2 a k) := by
  obtain ⟨-, -, -, -, -, -, -, -, h0, h1⟩ := idx_fixed t
  unfold iblk
  rw [View.read_apply]
  show V m c main_v10 _ = V m c main_v10 _
  refine congrArg (V m c main_v10) ?_
  funext b
  apply Fin.ext
  match b with
  | ⟨0, _⟩ => show win0_8.index t (0 : Fin 2) * 21 + 1 * a.val = a.val; rw [h0]; omega
  | ⟨1, _⟩ => show win0_8.index t (1 : Fin 2) * 384 + 1 * k.val = k.val; rw [h1]; omega

/-! ## One row of a block, from the blocks' rows -/

/-- When the blocks' rows are the padded edge's data, the body's gated features are the edge's. -/
theorem bx_eq (A : Args) (x0 : Vec Ideal S2048x128 .bf16) (x1 : Vec Ideal S2048x384 .bf16) (x2 : Vec Ideal S2048x21 .f32) (x3 : Vec Ideal S2048x3 .f32) (x4 : Vec Ideal S128x128 .f32) (x5 : Vec Ideal S1x128 .f32) (x6 : Vec Ideal S128x384 .f32) (x7 : Vec Ideal S1x384 .f32) (x8 : Vec Ideal S21x384 .f32) (e : Fin 401408) (p : Fin 2048)
    (h0 : ∀ a, x0 (ix2 p a) = A.s (ix2 (srcP A e) a)) (h2 : ∀ r, x2 (ix2 p r) = augP A e r)
    (h4 : ∀ a k, x4 (ix2 a k) = A.W1 (ix2 a k)) (h5 : ∀ k, x5 (ix2 (0 : Fin 1) k) = A.b1 (ix1 k))
    (h6 : ∀ k c, x6 (ix2 k c) = A.W2 (ix2 k c)) (h7 : ∀ c, x7 (ix2 (0 : Fin 1) c) = A.b2 (ix1 c))
    (h8 : ∀ r c, x8 (ix2 r c) = WrAug A r c) (c : Fin 384) :
    Pay.bx x0 x2 x4 x5 x6 x7 x8 p c = xvalP A e c := by
  unfold Pay.bx Pay.bpre xvalP lin2P hidP preP gateP
  simp only [h0, h2, h4, h5, h6, h7, h8]

/-- And the projection of the gathered vector features on the direction is the edge's. -/
theorem binner_eq (A : Args) (x0 : Vec Ideal S2048x128 .bf16) (x1 : Vec Ideal S2048x384 .bf16) (x2 : Vec Ideal S2048x21 .f32) (x3 : Vec Ideal S2048x3 .f32) (x4 : Vec Ideal S128x128 .f32) (x5 : Vec Ideal S1x128 .f32) (x6 : Vec Ideal S128x384 .f32) (x7 : Vec Ideal S1x384 .f32) (x8 : Vec Ideal S21x384 .f32) (e : Fin 401408) (p : Fin 2048)
    (h1 : ∀ d k, x1 (ix2 p (colD d k)) = A.v (ix3 (srcP A e) d k)) (h3 : ∀ d, x3 (ix2 p d) = evP A e d) (k : Fin 128) :
    Pay.binner x1 x3 p k = innerP A e k := by
  unfold Pay.binner innerP
  simp only [h1, h3]

/-- Column `128 d + k` of the vector output is direction `d`, feature `k`. -/
theorem dvEdge_col (A : Args) (e : Fin 401408) (d : Fin 3) (k : Fin 128) : dvEdge A (ix2 e (colD d k)) = dvEdgeAt A e d k := by
  unfold dvEdge
  have hd : (⟨(128 * d.val + k.val) / 128, by have := d.isLt; have := k.isLt; omega⟩ : Fin 3) = d :=
    Fin.ext (by show (128 * d.val + k.val) / 128 = d.val; have := k.isLt; omega)
  have hk : (⟨(128 * d.val + k.val) % 128, Nat.mod_lt _ (by omega)⟩ : Fin 128) = k :=
    Fin.ext (by show (128 * d.val + k.val) % 128 = k.val; have := k.isLt; omega)
  show dvEdgeAt A e ⟨(128 * d.val + k.val) / 128, _⟩ ⟨(128 * d.val + k.val) % 128, _⟩ = _
  rw [hd, hk]

theorem pt9 (A : Args) (x0 : Vec Ideal S2048x128 .bf16) (x1 : Vec Ideal S2048x384 .bf16) (x2 : Vec Ideal S2048x21 .f32) (x3 : Vec Ideal S2048x3 .f32) (x4 : Vec Ideal S128x128 .f32) (x5 : Vec Ideal S1x128 .f32) (x6 : Vec Ideal S128x384 .f32) (x7 : Vec Ideal S1x384 .f32) (x8 : Vec Ideal S21x384 .f32) (e : Fin 401408) (p : Fin 2048)
    (h0 : ∀ a, x0 (ix2 p a) = A.s (ix2 (srcP A e) a)) (h2 : ∀ r, x2 (ix2 p r) = augP A e r)
    (h4 : ∀ a k, x4 (ix2 a k) = A.W1 (ix2 a k)) (h5 : ∀ k, x5 (ix2 (0 : Fin 1) k) = A.b1 (ix1 k))
    (h6 : ∀ k c, x6 (ix2 k c) = A.W2 (ix2 k c)) (h7 : ∀ c, x7 (ix2 (0 : Fin 1) c) = A.b2 (ix1 c))
    (h8 : ∀ r c, x8 (ix2 r c) = WrAug A r c) (k : Fin 128) :
    out0_9 (F := Ideal) x0 x1 x2 x3 x4 x5 x6 x7 x8 (ix2 p k) = dsEdge A (ix2 e k) :=
  (Pay.out9_apply x0 x1 x2 x3 x4 x5 x6 x7 x8 p k).trans ((bx_eq A x0 x1 x2 x3 x4 x5 x6 x7 x8 e p h0 h2 h4 h5 h6 h7 h8 (col0 k)).trans (dsEdge_ix2 A e k).symm)

theorem pt10 (A : Args) (x0 : Vec Ideal S2048x128 .bf16) (x1 : Vec Ideal S2048x384 .bf16) (x2 : Vec Ideal S2048x21 .f32) (x3 : Vec Ideal S2048x3 .f32) (x4 : Vec Ideal S128x128 .f32) (x5 : Vec Ideal S1x128 .f32) (x6 : Vec Ideal S128x384 .f32) (x7 : Vec Ideal S1x384 .f32) (x8 : Vec Ideal S21x384 .f32) (e : Fin 401408) (p : Fin 2048)
    (h0 : ∀ a, x0 (ix2 p a) = A.s (ix2 (srcP A e) a)) (h1 : ∀ d k, x1 (ix2 p (colD d k)) = A.v (ix3 (srcP A e) d k))
    (h2 : ∀ r, x2 (ix2 p r) = augP A e r) (h3 : ∀ d, x3 (ix2 p d) = evP A e d)
    (h4 : ∀ a k, x4 (ix2 a k) = A.W1 (ix2 a k)) (h5 : ∀ k, x5 (ix2 (0 : Fin 1) k) = A.b1 (ix1 k))
    (h6 : ∀ k c, x6 (ix2 k c) = A.W2 (ix2 k c)) (h7 : ∀ c, x7 (ix2 (0 : Fin 1) c) = A.b2 (ix1 c))
    (h8 : ∀ r c, x8 (ix2 r c) = WrAug A r c) (d : Fin 3) (k : Fin 128) :
    out0_10 (F := Ideal) x0 x1 x2 x3 x4 x5 x6 x7 x8 (ix2 p (colD d k)) = dvEdge A (ix2 e (colD d k)) := by
  rw [Pay.out10_apply x0 x1 x2 x3 x4 x5 x6 x7 x8 p d k, dvEdge_col, bx_eq A x0 x1 x2 x3 x4 x5 x6 x7 x8 e p h0 h2 h4 h5 h6 h7 h8 (col1 k),
    bx_eq A x0 x1 x2 x3 x4 x5 x6 x7 x8 e p h0 h2 h4 h5 h6 h7 h8 (col2 k), binner_eq A x0 x1 x2 x3 x4 x5 x6 x7 x8 e p h1 h3 k, h3 d]
  rfl

/-! ## What a point writes back -/

/-- The nine blocks' rows at point `t` are the padded edges' data. -/
theorem rows0 (c : Dev nD) (t : Fin cfg0.N) (p : Fin 2048) (a : Fin 128) :
    (iblk m c 0 t : Vec Ideal S2048x128 .bf16) (ix2 p a) = (argsOf m c).s (ix2 (srcP (argsOf m c) (edgeOf t p)) a) :=
  (blk0 m c t p a).trans (Pre.v26_apply m c _ a)
theorem rows1 (c : Dev nD) (t : Fin cfg0.N) (p : Fin 2048) (d : Fin 3) (k : Fin 128) :
    (iblk m c 1 t : Vec Ideal S2048x384 .bf16) (ix2 p (colD d k)) = (argsOf m c).v (ix3 (srcP (argsOf m c) (edgeOf t p)) d k) :=
  (blk1 m c t p (colD d k)).trans (Pre.v33_apply m c _ d k)
theorem rows2 (c : Dev nD) (t : Fin cfg0.N) (p : Fin 2048) (r : Fin 21) :
    (iblk m c 2 t : Vec Ideal S2048x21 .f32) (ix2 p r) = augP (argsOf m c) (edgeOf t p) r :=
  (blk2 m c t p r).trans (Pre.v15_apply m c _ r)
theorem rows3 (c : Dev nD) (t : Fin cfg0.N) (p : Fin 2048) (d : Fin 3) :
    (iblk m c 3 t : Vec Ideal S2048x3 .f32) (ix2 p d) = evP (argsOf m c) (edgeOf t p) d :=
  (blk3 m c t p d).trans (Pre.v16_apply m c _ d)
theorem rows4 (c : Dev nD) (t : Fin cfg0.N) (a : Fin 128) (k : Fin 128) :
    (iblk m c 4 t : Vec Ideal S128x128 .f32) (ix2 a k) = (argsOf m c).W1 (ix2 a k) :=
  (blk4 m c t a k).trans (congrFun (V_main_arg5 m c) (ix2 a k))
theorem rows5 (c : Dev nD) (t : Fin cfg0.N) (k : Fin 128) :
    (iblk m c 5 t : Vec Ideal S1x128 .f32) (ix2 (0 : Fin 1) k) = (argsOf m c).b1 (ix1 k) :=
  (blk5 m c t 0 k).trans (Pre.v34_apply m c k)
theorem rows6 (c : Dev nD) (t : Fin cfg0.N) (a : Fin 128) (k : Fin 384) :
    (iblk m c 6 t : Vec Ideal S128x384 .f32) (ix2 a k) = (argsOf m c).W2 (ix2 a k) :=
  (blk6 m c t a k).trans (congrFun (V_main_arg7 m c) (ix2 a k))
theorem rows7 (c : Dev nD) (t : Fin cfg0.N) (k : Fin 384) :
    (iblk m c 7 t : Vec Ideal S1x384 .f32) (ix2 (0 : Fin 1) k) = (argsOf m c).b2 (ix1 k) :=
  (blk7 m c t 0 k).trans (Pre.v35_apply m c k)
theorem rows8 (c : Dev nD) (t : Fin cfg0.N) (r : Fin 21) (k : Fin 384) :
    (iblk m c 8 t : Vec Ideal S21x384 .f32) (ix2 r k) = WrAug (argsOf m c) r k :=
  (blk8 m c t r k).trans (Pre.v10_apply m c r k)

/-- WHAT POINT `t` WRITES BACK to the scalar output is block `t` of the per-edge scalar features. -/
theorem flushed9_eq (c : Dev nD) (t : Fin cfg0.N) :
    (dats m 0 c).flushed 9 t = ((cfg0.win 9).blk t).view.read (Elt Ideal) (dsEdge (argsOf m c)) := by
  show (cfg0.win 9).cut (grid0.coords t) ((dats m 0 c).after 9 t) = _
  rw [after0_9]
  obtain ⟨-, -, -, -, -, -, -, -, h0, h1, -⟩ := idx_moving t
  funext j
  have hj : j = ix2 (⟨(j 0).val, (j 0).isLt⟩ : Fin 2048) (⟨(j 1).val, (j 1).isLt⟩ : Fin 128) := by
    funext b; match b with | ⟨0, _⟩ => rfl | ⟨1, _⟩ => rfl
  have hemb : ((cfg0.win 9).blk t).view.emb j
      = ix2 (edgeOf t ⟨(j 0).val, (j 0).isLt⟩) (⟨(j 1).val, (j 1).isLt⟩ : Fin 128) := by
    funext b; apply Fin.ext
    match b with
    | ⟨0, _⟩ => show win0_9.index t (0 : Fin 2) * 2048 + 1 * (j 0).val = 2048 * t.val + (j 0).val; rw [h0]; omega
    | ⟨1, _⟩ => show win0_9.index t (1 : Fin 2) * 128 + 1 * (j 1).val = (j 1).val; rw [h1]; omega
  show out0_9 (iblk m c 0 t) (iblk m c 1 t) (iblk m c 2 t) (iblk m c 3 t) (iblk m c 4 t) (iblk m c 5 t) (iblk m c 6 t) (iblk m c 7 t) (iblk m c 8 t) j = dsEdge (argsOf m c) (((cfg0.win 9).blk t).view.emb j)
  rw [hemb]
  refine (congrArg (out0_9 (iblk m c 0 t) (iblk m c 1 t) (iblk m c 2 t) (iblk m c 3 t) (iblk m c 4 t) (iblk m c 5 t) (iblk m c 6 t) (iblk m c 7 t) (iblk m c 8 t)) hj).trans ?_
  exact pt9 (argsOf m c) (iblk m c 0 t) (iblk m c 1 t) (iblk m c 2 t) (iblk m c 3 t) (iblk m c 4 t) (iblk m c 5 t) (iblk m c 6 t) (iblk m c 7 t) (iblk m c 8 t) (edgeOf t ⟨(j 0).val, (j 0).isLt⟩) ⟨(j 0).val, (j 0).isLt⟩
    (fun a => rows0 m c t _ a) (fun r => rows2 m c t _ r) (fun a k => rows4 m c t a k) (fun k => rows5 m c t k)
    (fun a k => rows6 m c t a k) (fun k => rows7 m c t k) (fun r k => rows8 m c t r k) ⟨(j 1).val, (j 1).isLt⟩

/-- WHAT POINT `t` WRITES BACK to the vector output is block `t` of the per-edge vector features. -/
theorem flushed10_eq (c : Dev nD) (t : Fin cfg0.N) :
    (dats m 0 c).flushed 10 t = ((cfg0.win 10).blk t).view.read (Elt Ideal) (dvEdge (argsOf m c)) := by
  show (cfg0.win 10).cut (grid0.coords t) ((dats m 0 c).after 10 t) = _
  rw [after0_10]
  obtain ⟨-, -, -, -, -, -, -, -, -, -, h0, h1⟩ := idx_moving t
  funext j
  have h1lt : (j 1).val < 384 := (j 1).isLt
  have hj : j = ix2 (⟨(j 0).val, (j 0).isLt⟩ : Fin 2048)
      (colD ⟨(j 1).val / 128, by omega⟩ ⟨(j 1).val % 128, Nat.mod_lt _ (by omega)⟩) := by
    funext b; apply Fin.ext
    match b with
    | ⟨0, _⟩ => rfl
    | ⟨1, _⟩ => show (j 1).val = 128 * ((j 1).val / 128) + (j 1).val % 128; omega
  have hemb : ((cfg0.win 10).blk t).view.emb j
      = ix2 (edgeOf t ⟨(j 0).val, (j 0).isLt⟩) (colD ⟨(j 1).val / 128, by omega⟩ ⟨(j 1).val % 128, Nat.mod_lt _ (by omega)⟩) := by
    funext b; apply Fin.ext
    match b with
    | ⟨0, _⟩ => show win0_10.index t (0 : Fin 2) * 2048 + 1 * (j 0).val = 2048 * t.val + (j 0).val; rw [h0]; omega
    | ⟨1, _⟩ => show win0_10.index t (1 : Fin 2) * 384 + 1 * (j 1).val = 128 * ((j 1).val / 128) + (j 1).val % 128; rw [h1]; omega
  show out0_10 (iblk m c 0 t) (iblk m c 1 t) (iblk m c 2 t) (iblk m c 3 t) (iblk m c 4 t) (iblk m c 5 t) (iblk m c 6 t) (iblk m c 7 t) (iblk m c 8 t) j = dvEdge (argsOf m c) (((cfg0.win 10).blk t).view.emb j)
  rw [hemb]
  refine (congrArg (out0_10 (iblk m c 0 t) (iblk m c 1 t) (iblk m c 2 t) (iblk m c 3 t) (iblk m c 4 t) (iblk m c 5 t) (iblk m c 6 t) (iblk m c 7 t) (iblk m c 8 t)) hj).trans ?_
  exact pt10 (argsOf m c) (iblk m c 0 t) (iblk m c 1 t) (iblk m c 2 t) (iblk m c 3 t) (iblk m c 4 t) (iblk m c 5 t) (iblk m c 6 t) (iblk m c 7 t) (iblk m c 8 t) (edgeOf t ⟨(j 0).val, (j 0).isLt⟩) ⟨(j 0).val, (j 0).isLt⟩
    (fun a => rows0 m c t _ a) (fun d k => rows1 m c t _ d k) (fun r => rows2 m c t _ r) (fun d => rows3 m c t _ d)
    (fun a k => rows4 m c t a k) (fun k => rows5 m c t k)
    (fun a k => rows6 m c t a k) (fun k => rows7 m c t k) (fun r k => rows8 m c t r k) _ _

/-! ## The arrays after the region -/

theorem mem_blk9 (t : Fin cfg0.N) (i : S401408x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v36_0).slice (win0_9.rect t)).set ↔ _
  rw [View.set_slice_whole, Rect.mem_set_unit]
  exact Iff.rfl

theorem mem_blk10 (t : Fin cfg0.N) (i : S401408x384.Idx) :
    i ∈ ((cfg0.win 10).blk t).view.set ↔ ∀ a : Fin 2, win0_10.index t a * S2048x384.size a ≤ (i a).val ∧ (i a).val < win0_10.index t a * S2048x384.size a + S2048x384.size a := by
  show i ∈ ((View.whole main_v36_1).slice (win0_10.rect t)).set ↔ _
  rw [View.set_slice_whole, Rect.mem_set_unit]
  exact Iff.rfl

/-- Row `r` of either output lies in the block of point `r / 2048`. -/
theorem cover9 (i : S401408x128.Idx) : ∃ t : Fin cfg0.N, (cfg0.win 9).flush t = true ∧ i ∈ ((cfg0.win 9).blk t).view.set := by
  have hN : cfg0.N = 196 := N_0
  have hi0 : (i 0).val < 401408 := (i 0).isLt
  have hi1 : (i 1).val < 128 := (i 1).isLt
  have ht : ∃ t : Fin cfg0.N, t.val = (i 0).val / 2048 := ⟨⟨(i 0).val / 2048, by omega⟩, rfl⟩
  obtain ⟨t, ht⟩ := ht
  obtain ⟨-, -, -, -, -, -, -, -, h0, h1, -⟩ := idx_moving t
  refine ⟨t, flush0_9 t, ?_⟩
  rw [mem_blk9]
  intro a
  match a with
  | ⟨0, _⟩ => show win0_9.index t (0 : Fin 2) * 2048 ≤ (i 0).val ∧ (i 0).val < win0_9.index t (0 : Fin 2) * 2048 + 2048; rw [h0, ht]; omega
  | ⟨1, _⟩ => show win0_9.index t (1 : Fin 2) * 128 ≤ (i 1).val ∧ (i 1).val < win0_9.index t (1 : Fin 2) * 128 + 128; rw [h1]; omega

theorem cover10 (i : S401408x384.Idx) : ∃ t : Fin cfg0.N, (cfg0.win 10).flush t = true ∧ i ∈ ((cfg0.win 10).blk t).view.set := by
  have hN : cfg0.N = 196 := N_0
  have hi0 : (i 0).val < 401408 := (i 0).isLt
  have hi1 : (i 1).val < 384 := (i 1).isLt
  have ht : ∃ t : Fin cfg0.N, t.val = (i 0).val / 2048 := ⟨⟨(i 0).val / 2048, by omega⟩, rfl⟩
  obtain ⟨t, ht⟩ := ht
  obtain ⟨-, -, -, -, -, -, -, -, -, -, h0, h1⟩ := idx_moving t
  refine ⟨t, flush0_10 t, ?_⟩
  rw [mem_blk10]
  intro a
  match a with
  | ⟨0, _⟩ => show win0_10.index t (0 : Fin 2) * 2048 ≤ (i 0).val ∧ (i 0).val < win0_10.index t (0 : Fin 2) * 2048 + 2048; rw [h0, ht]; omega
  | ⟨1, _⟩ => show win0_10.index t (1 : Fin 2) * 384 ≤ (i 1).val ∧ (i 1).val < win0_10.index t (1 : Fin 2) * 384 + 384; rw [h1]; omega

/-- After the region the two output arrays hold the per-edge features of the padded edge list. -/
theorem final9 (c : Dev nD) : (dats m 0 c).arrAt 9 cfg0.N = dsEdge (argsOf m c) :=
  (dats m 0 c).arrAt_eq_of_cover 9 (dsEdge (argsOf m c)) (fun t _ => flushed9_eq m c t) (fun i => cover9 i)

theorem final10 (c : Dev nD) : (dats m 0 c).arrAt 10 cfg0.N = dvEdge (argsOf m c) :=
  (dats m 0 c).arrAt_eq_of_cover 10 (dvEdge (argsOf m c)) (fun t _ => flushed10_eq m c t) (fun i => cover10 i)

end Cert.KernelIdeal.Arr

end
-- ==== Proof.MsgBridge.lean ====
/-
  The kernel's padded, folded form of the layer against the specification, for finite arguments.

  On a real edge the padded quantities are the specification's: the gathered row is the same, the
  21-term radial product sum is the biased 20-term one scaled by the cutoff (distributivity, which
  needs finite values), and the three-term projection is the sum over the three directions. On a padding
  edge the radial row and the direction are zero, so both per-edge outputs vanish. A sum over the
  padded edge list that selects by destination is therefore the sum over the real edges, and the
  kernel's two scattered sums are the specification's updates.
-/
import proofs.«143102_j71390946394547_2_alg».proof.Proof.MsgReal

noncomputable section

open scoped BigOperators

namespace Cert.Msg

open Idealize.ShloMosaic Idealize.ShloMosaic.ValueIdx

/-! ### A real edge: the padded quantities are the specification's -/

theorem srcWordP_edge (A : Args) (e : Fin 400000) (h : e.val < 401408) :
    srcWordP A ⟨e.val, h⟩ = srcWord A e := by
  have h1 : ((⟨e.val, h⟩ : Fin 401408)).val < 400000 := e.isLt
  unfold srcWordP
  rw [dif_pos h1]

theorem srcP_edge (A : Args) (e : Fin 400000) (h : e.val < 401408) : srcP A ⟨e.val, h⟩ = src A e := by
  unfold srcP src
  rw [srcWordP_edge]

theorem srcP_real (A : Args) (e : Fin 400000) : srcP A ⟨e.val, by omega⟩ = src A e := srcP_edge A e _

theorem preP_edge (A : Args) (e : Fin 400000) (h : e.val < 401408) (k : Fin 128) :
    preP A ⟨e.val, h⟩ k = pre A e k := by
  unfold preP pre
  rw [srcP_edge]

theorem hidP_edge (A : Args) (e : Fin 400000) (h : e.val < 401408) (k : Fin 128) :
    hidP A ⟨e.val, h⟩ k = hid A e k := by
  unfold hidP hid
  rw [preP_edge]

theorem lin2P_edge (A : Args) (e : Fin 400000) (h : e.val < 401408) (c : Fin 384) :
    lin2P A ⟨e.val, h⟩ c = lin2 A e c := by
  unfold lin2P lin2
  simp only [hidP_edge]

theorem augP_edge_lt (A : Args) (e : Fin 400000) (h : e.val < 401408) (r : Fin 20) :
    augP A ⟨e.val, h⟩ (Fin.castSucc r) = A.rbf (ix2 e r) * A.cut (ix1 e) := by
  have h1 : ((⟨e.val, h⟩ : Fin 401408)).val < 400000 := e.isLt
  have h2 : (Fin.castSucc r).val < 20 := r.isLt
  unfold augP
  rw [dif_pos h1, dif_pos h2]
  rfl

theorem augP_edge_last (A : Args) (e : Fin 400000) (h : e.val < 401408) :
    augP A ⟨e.val, h⟩ (Fin.last 20) = 1 * A.cut (ix1 e) := by
  have h1 : ((⟨e.val, h⟩ : Fin 401408)).val < 400000 := e.isLt
  have h2 : ¬ (Fin.last 20).val < 20 := by simp
  unfold augP
  rw [dif_pos h1, dif_neg h2]

theorem WrAug_lt (A : Args) (r : Fin 20) (c : Fin 384) : WrAug A (Fin.castSucc r) c = A.Wr (ix2 r c) := by
  have h2 : (Fin.castSucc r).val < 20 := r.isLt
  unfold WrAug
  rw [dif_pos h2]
  rfl

theorem WrAug_last (A : Args) (c : Fin 384) : WrAug A (Fin.last 20) c = A.br (ix1 c) := by
  have h2 : ¬ (Fin.last 20).val < 20 := by simp
  unfold WrAug
  rw [dif_neg h2]

/-- The 21-term product sum of the extended row is the gate: distributivity over finite values. -/
theorem gateP_edge (A : Args) (hA : A.Real) (e : Fin 400000) (h : e.val < 401408) (c : Fin 384) :
    gateP A ⟨e.val, h⟩ c = gate A e c := by
  unfold gateP gate
  rw [gate_fold _ _ _ _ (fun r => hA.rbf _) (fun r => hA.Wr _) (hA.br _) (hA.cut _), Fin.sum_univ_castSucc]
  simp only [augP_edge_lt, augP_edge_last, WrAug_lt, WrAug_last]

theorem xvalP_edge (A : Args) (hA : A.Real) (e : Fin 400000) (c : Fin 384) :
    xvalP A ⟨e.val, by omega⟩ c = xval A e c := by
  unfold xvalP xval
  rw [lin2P_edge, gateP_edge A hA]

theorem evP_edge' (A : Args) (e : Fin 400000) (h : e.val < 401408) (d : Fin 3) :
    evP A ⟨e.val, h⟩ d = A.ev (ix2 e d) := by
  have h1 : ((⟨e.val, h⟩ : Fin 401408)).val < 400000 := e.isLt
  unfold evP
  rw [dif_pos h1]

theorem evP_edge (A : Args) (e : Fin 400000) (d : Fin 3) : evP A ⟨e.val, by omega⟩ d = A.ev (ix2 e d) :=
  evP_edge' A e _ d

theorem innerP_edge (A : Args) (e : Fin 400000) (k : Fin 128) : innerP A ⟨e.val, by omega⟩ k = inner A e k := by
  unfold innerP inner
  rw [Fin.sum_univ_three, srcP_edge, evP_edge', evP_edge', evP_edge']

theorem dstWordP_edge (A : Args) (e : Fin 400000) : dstWordP A ⟨e.val, by omega⟩ = dstWord A e := by
  have h1 : ((⟨e.val, by omega⟩ : Fin 401408)).val < 400000 := e.isLt
  unfold dstWordP
  rw [dif_pos h1]

/-! ### A padding edge: everything vanishes -/

theorem augP_pad (A : Args) (e : Fin 401408) (he : 400000 ≤ e.val) (r : Fin 21) : augP A e r = 0 := by
  unfold augP
  rw [dif_neg (Nat.not_lt.2 he)]

theorem xvalP_pad (A : Args) (e : Fin 401408) (he : 400000 ≤ e.val) (c : Fin 384) : xvalP A e c = 0 := by
  unfold xvalP gateP
  simp only [augP_pad A e he, zero_mul, Finset.sum_const_zero, mul_zero]

theorem evP_pad (A : Args) (e : Fin 401408) (he : 400000 ≤ e.val) (d : Fin 3) : evP A e d = 0 := by
  unfold evP
  rw [dif_neg (Nat.not_lt.2 he)]

theorem dvEdgeAt_pad (A : Args) (e : Fin 401408) (he : 400000 ≤ e.val) (d : Fin 3) (k : Fin 128) :
    dvEdgeAt A e d k = 0 := by
  unfold dvEdgeAt
  rw [evP_pad A e he, mul_zero]

/-! ### Sums over the padded edge list -/

/-- A sum over `400000 + 1408` indices whose last 1408 terms vanish is the sum of the first 400000. -/
theorem sum_head (g : Fin (400000 + 1408) → EReal) (hg : ∀ i : Fin 1408, g (Fin.natAdd 400000 i) = 0) :
    (∑ e, g e) = ∑ e : Fin 400000, g (Fin.castAdd 1408 e) := by
  rw [Fin.sum_univ_add, Finset.sum_eq_zero (fun i _ => hg i), add_zero]

theorem sum_padded (A : Args) (n : Fin 20000) (f : Fin 401408 → EReal)
    (hf : ∀ e : Fin 401408, 400000 ≤ e.val → f e = 0) :
    (∑ e : Fin 401408, if (dstWordP A e).toInt = (n.val : ℤ) then f e else 0)
      = ∑ e : Fin 400000, if lands A e n then f ⟨e.val, by omega⟩ else 0 := by
  refine (sum_head (fun e => if (dstWordP A e).toInt = (n.val : ℤ) then f e else 0) ?_).trans ?_
  · intro i
    rw [hf _ (Nat.le_add_right 400000 i.val), ite_self]
  · refine Finset.sum_congr rfl fun e _ => ?_
    show (if (dstWordP A ⟨e.val, _⟩).toInt = (n.val : ℤ) then f ⟨e.val, _⟩ else 0) = _
    rw [dstWordP_edge]
    by_cases hl : lands A e n
    · have hl' : (dstWord A e).toInt = (n.val : ℤ) := hl
      rw [if_pos hl, if_pos hl']
    · have hl' : ¬ (dstWord A e).toInt = (n.val : ℤ) := hl
      rw [if_neg hl, if_neg hl']

/-! ### The two results -/

theorem ds_bridge (A : Args) (hA : A.Real) (n : Fin 20000) (k : Fin 128) :
    (∑ e : Fin 401408, if (dstWordP A e).toInt = (n.val : ℤ) then dsEdge A (ix2 e k) else 0) = dsAt A n k := by
  simp only [dsEdge_ix2]
  refine (sum_padded A n (fun e => xvalP A e (col0 k)) (fun e he => xvalP_pad A e he _)).trans ?_
  unfold dsAt
  refine Finset.sum_congr rfl fun e _ => ?_
  rw [xvalP_edge A hA]

theorem dv_bridge (A : Args) (hA : A.Real) (n : Fin 20000) (d : Fin 3) (k : Fin 128) :
    (∑ e : Fin 401408, if (dstWordP A e).toInt = (n.val : ℤ) then dvEdgeAt A e d k else 0) = dvAt A n d k := by
  refine (sum_padded A n (fun e => dvEdgeAt A e d k) (fun e he => dvEdgeAt_pad A e he d k)).trans ?_
  unfold dvAt
  rw [← Finset.sum_add_distrib]
  refine Finset.sum_congr rfl fun e _ => ?_
  by_cases hl : lands A e n
  · rw [if_pos hl, if_pos hl, if_pos hl]
    unfold dvEdgeAt
    rw [xvalP_edge A hA, xvalP_edge A hA, innerP_edge, evP_edge]
    exact add_mul_real (real_xval A hA e _) (IsReal.mul (real_inner A hA e k) (real_xval A hA e _)) (hA.ev _)
  · rw [if_neg hl, if_neg hl, if_neg hl, add_zero]

end Cert.Msg

end
-- ==== Proof.KernelTail.lean ====
/-
  The kernel's program after its region, and its run read as values.

  After the region the host sums the per-edge features into their destination nodes: an accumulating
  scatter of the scalar features by the padded destination words, and of the vector features re-laid
  from 384 columns to 3 directions × 128. Entry `(n, …)` of an accumulating scatter into a zero table is
  the sum over the padded edges `e` whose destination word, read signed, is `n`; the 1408 padded edges
  carry zero features, and on the real edges the kernel's folded forms are the specification's under
  finiteness — so the two results are the specification's arrays.
-/
import proofs.«143102_j71390946394547_2_alg».proof.Proof.KernelArr
import proofs.«143102_j71390946394547_2_alg».proof.Proof.MsgBridge
import proofs.«143102_j71390946394547_2_alg».proof.Proof.LibRows
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Tail

open Cert.Msg Cert.KernelIdeal Cert.KernelIdeal.Gen Cert.KernelIdeal.Arr

variable (m : (ℓ : Loc nD τ sig) → Buf (Elt Ideal) ℓ) (ρ : Dev nD → PrngReg)

/-- The destination column read at row `e` is the padded destination word. -/
theorem dstCol_apply (y : (⟨1, ![401408]⟩ : Shape).Idx → BitVec 32) (e : Fin 401408) :
    broadcastInDim S401408x1 ![0] bcast_S401408_S401408x1_0 y (ix2 e (0 : Fin 1)) = y (ix1 e) :=
  broadcastInDim_apply _ bcast_S401408_S401408x1_0 y (ix2 e (0 : Fin 1)) (ix1 e) (fun a => match a with
    | ⟨0, _⟩ => by show e.val = if (401408 : Nat) = 1 then 0 else e.val; rw [if_neg (by decide)])

theorem t1 (x : FVec Ideal S20000x128 .f32) (idx : IVec S401408x1 32) (upd : FVec Ideal S401408x128 .f32) (n : Fin 20000) (k : Fin 128) :
    Host.scatterAdd (F := Ideal) scatter_S20000x128_S401408x1_S401408x128_1_0_0_1 x idx upd (ix2 n k)
      = x (ix2 n k) + ∑ e : Fin 401408, if (idx (ix2 e (0 : Fin 1))).toInt = (n.val : ℤ) then upd (ix2 e k) else 0 :=
  Cert.Rows.scatterAdd2_apply (N := 20000) (C := 128) (M := 401408) scatter_S20000x128_S401408x1_S401408x128_1_0_0_1.wf x idx upd n k

theorem zero2 (n : Fin 20000) (k : Fin 128) :
    broadcastInDim S20000x128 ![] bcast_S_S20000x128 (constant (F := Ideal) S_ .f32 0x00000000#32) (ix2 n k) = 0 := by
  rw [broadcastInDim_apply _ bcast_S_S20000x128 (constant (F := Ideal) S_ .f32 0x00000000#32) (ix2 n k) ix0 (fun a => a.elim0),
    constant_apply, Ideal.ofBits_zero_f32]

theorem scat_ds (A : Args) (hA : A.Real) (y : (⟨1, ![401408]⟩ : Shape).Idx → BitVec 32) (hy : ∀ e, y (ix1 e) = dstWordP A e) :
    Host.scatterAdd (F := Ideal) scatter_S20000x128_S401408x1_S401408x128_1_0_0_1
      (broadcastInDim S20000x128 ![] bcast_S_S20000x128 (constant (F := Ideal) S_ .f32 0x00000000#32))
      (broadcastInDim S401408x1 ![0] bcast_S401408_S401408x1_0 y) (dsEdge A) = dsOut A := by
  funext i
  obtain ⟨n, k, rfl⟩ : ∃ (n : Fin 20000) (k : Fin 128), i = ix2 n k := ⟨i 0, i 1, eq_ix2 i⟩
  refine (t1 _ _ (dsEdge A) n k).trans ?_
  rw [zero2, zero_add, dsOut_ix2]
  refine Eq.trans (Finset.sum_congr rfl fun e _ => ?_) (ds_bridge A hA n k)
  rw [dstCol_apply, hy]

theorem t3 (x : FVec Ideal S20000x3x128 .f32) (idx : IVec S401408x1 32) (upd : FVec Ideal S401408x3x128 .f32) (n : Fin 20000) (d : Fin 3) (k : Fin 128) :
    Host.scatterAdd (F := Ideal) scatter_S20000x3x128_S401408x1_S401408x3x128_12_0_0_1 x idx upd (ix3 n d k)
      = x (ix3 n d k) + ∑ e : Fin 401408, if (idx (ix2 e (0 : Fin 1))).toInt = (n.val : ℤ) then upd (ix3 e d k) else 0 :=
  Cert.Rows.scatterAdd3_apply (N := 20000) (B := 3) (C := 128) (M := 401408) scatter_S20000x3x128_S401408x1_S401408x3x128_12_0_0_1.wf x idx upd n d k

theorem zero3 (n : Fin 20000) (d : Fin 3) (k : Fin 128) :
    broadcastInDim S20000x3x128 ![] bcast_S_S20000x3x128 (constant (F := Ideal) S_ .f32 0x00000000#32) (ix3 n d k) = 0 := by
  rw [broadcastInDim_apply _ bcast_S_S20000x3x128 (constant (F := Ideal) S_ .f32 0x00000000#32) (ix3 n d k) ix0 (fun a => a.elim0),
    constant_apply, Ideal.ofBits_zero_f32]

/-- The vector features re-laid by direction: entry `(e, d, k)` is column `128 d + k` of row `e`. -/
theorem relaid_apply (A : Args) (e : Fin 401408) (d : Fin 3) (k : Fin 128) :
    shapeCast S401408x3x128 (dvEdge A) shapeCasts_S401408x384_S401408x3x128 (ix3 e d k) = dvEdgeAt A e d k := by
  rw [shapeCast_apply (dvEdge A) shapeCasts_S401408x384_S401408x3x128 (ix3 e d k) (ix2 e (colD d k))
      (by rw [Shape.rowMajor_val_two, Shape.rowMajor_val_three]
          show e.val * 384 + (128 * d.val + k.val) = (e.val * 3 + d.val) * 128 + k.val
          omega),
    dvEdge_col]

theorem scat_dv (A : Args) (hA : A.Real) (y : (⟨1, ![401408]⟩ : Shape).Idx → BitVec 32) (hy : ∀ e, y (ix1 e) = dstWordP A e) :
    Host.scatterAdd (F := Ideal) scatter_S20000x3x128_S401408x1_S401408x3x128_12_0_0_1
      (broadcastInDim S20000x3x128 ![] bcast_S_S20000x3x128 (constant (F := Ideal) S_ .f32 0x00000000#32))
      (broadcastInDim S401408x1 ![0] bcast_S401408_S401408x1_0 y)
      (shapeCast S401408x3x128 (dvEdge A) shapeCasts_S401408x384_S401408x3x128) = dvOut A := by
  funext i
  obtain ⟨n, d, k, rfl⟩ : ∃ (n : Fin 20000) (d : Fin 3) (k : Fin 128), i = ix3 n d k := ⟨i 0, i 1, i 2, eq_ix3 i⟩
  refine (t3 _ _ (shapeCast S401408x3x128 (dvEdge A) shapeCasts_S401408x384_S401408x3x128) n d k).trans ?_
  rw [zero3, zero_add, dvOut_ix3]
  refine Eq.trans (Finset.sum_congr rfl fun e _ => ?_) (dv_bridge A hA n d k)
  rw [dstCol_apply, hy, relaid_apply]

/-- After the region the pipeline's two output buffers hold the per-edge features; the destination words are
    as the region found them. -/
theorem w9 (c : Dev nD) : Pipeline.withArrays (cfgs 0).spec c (V0 m c) (fun w => (dats m 0 c).arrAt w (cfgs 0).N) (Proc.devRef .tc main_v36_0)
    = dsEdge (argsOf m c) :=
  (Pipeline.withArrays_arr spec0 launch0.win.arr_inj c _ _ 9).trans (final9 m c)
theorem w10 (c : Dev nD) : Pipeline.withArrays (cfgs 0).spec c (V0 m c) (fun w => (dats m 0 c).arrAt w (cfgs 0).N) (Proc.devRef .tc main_v36_1)
    = dvEdge (argsOf m c) :=
  (Pipeline.withArrays_arr spec0 launch0.win.arr_inj c _ _ 10).trans (final10 m c)
theorem w12 (c : Dev nD) : Pipeline.withArrays (cfgs 0).spec c (V0 m c) (fun w => (dats m 0 c).arrAt w (cfgs 0).N) (Proc.devRef .tc main_v12)
    = V m c main_v12 :=
  Pipeline.withArrays_of_ne _ c (V0 m c) _ main_v12 (by exact (by decide : ∀ w, Pipeline.arrRef spec0 w ≠ main_v12))

/-- The scalar result: the per-edge scalar features summed into their destination nodes. -/
theorem tail_ds (c : Dev nD) (hA : (argsOf m c).Real) :
    Pipeline.afterTail₀ cfgs (dats m) 0 (V0 m) [hostOps1] c main_v39 = dsOut (argsOf m c) := by
  unfold Pipeline.afterTail₀
  show StableHlo.after hostOps1 _ (Proc.devRef .tc main_v39) = _
  after_results
  rw [w9, w12]
  exact scat_ds (argsOf m c) hA (V m c main_v12) (fun e => Pre.v12_apply m c e)

/-- The vector result: the per-edge vector features, re-laid by direction, summed into their destination nodes. -/
theorem tail_dv (c : Dev nD) (hA : (argsOf m c).Real) :
    Pipeline.afterTail₀ cfgs (dats m) 0 (V0 m) [hostOps1] c main_v43 = dvOut (argsOf m c) := by
  unfold Pipeline.afterTail₀
  show StableHlo.after hostOps1 _ (Proc.devRef .tc main_v43) = _
  after_results
  rw [w10, w12]
  exact scat_dv (argsOf m c) hA (V m c main_v12) (fun e => Pre.v12_apply m c e)

/-! ## The kernel's run, read -/

/-- Every weakly fair execution of the kernel's program from finite arguments ends with the two results at the
    specification's arrays and the arguments unchanged. -/
theorem run (hA : ∀ c : Dev nD, (argsOf m c).Real) :
    θ_run defs (onTc (τ := τ) (main (F := Ideal))) ⟨m, fun _ => 0, ρ⟩ (fun r => ∀ c : Dev nD,
      r.2.mem ((c.tc : Thread nD τ).loc main_v39) = dsOut (argsOf m c)
      ∧ r.2.mem ((c.tc : Thread nD τ).loc main_v43) = dvOut (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_v39 (Pipeline.mem_restRefs_of main_v39 (by decide) (by decide))).trans (tail_ds m c (hA c)),
      ((h c).2 main_v43 (Pipeline.mem_restRefs_of main_v43 (by decide) (by decide))).trans (tail_dv m c (hA c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KernelIdeal.Tail

end
-- ==== Proof.lean ====
/- The proof of `Cert.Claim`: a message-passing layer — per-edge radial projection, a two-layer scalar network on
   the gathered source features, gating, and a sum of the edges' features into their destination nodes — computed
   by a kernel over blocks of 2048 edges of a zero-padded edge list, against its plain array reference, as extended reals.

   The specification (Proof/MsgSpec.lean) states the two results as functions of the argument arrays. The reference's
   two results are those functions (Proof/RefValue.lean, over the generated run and read-at-an-index modules). The
   kernel's program gathers and pads on the host, runs its region (Proof/KernelPre.lean: what the region's windows
   stage; Proof/KernelPay.lean: the body's stores at an index; Proof/KernelArr.lean: the two output arrays after the
   region), and scatters on the host (Proof/KernelTail.lean). Two of the kernel's rearrangements hold only for finite
   numbers — folding the bias and the cutoff into one 21-term product sum, and multiplying the sum of the two vector
   terms by the direction once — and the precondition gives finiteness (Proof/MsgReal.lean, Proof/MsgBridge.lean).
   The three frames are the generated ones; the idealization rewrote nothing. -/
import proofs.«143102_j71390946394547_2_alg».proof.Defs
import proofs.«143102_j71390946394547_2_alg».proof.Proof.Gen.Kernel
import proofs.«143102_j71390946394547_2_alg».proof.Proof.Gen.Kernel.Frame
import proofs.«143102_j71390946394547_2_alg».proof.Proof.Gen.KernelIdeal
import proofs.«143102_j71390946394547_2_alg».proof.Proof.Gen.KernelIdeal.Frame
import proofs.«143102_j71390946394547_2_alg».proof.Proof.Gen.ReferenceIdeal
import proofs.«143102_j71390946394547_2_alg».proof.Proof.Gen.Pre_finite_inputs
import proofs.«143102_j71390946394547_2_alg».proof.Proof.Gen.ReferenceIdeal.Run
import proofs.«143102_j71390946394547_2_alg».proof.Proof.Gen.ReferenceIdeal.Read
import proofs.«143102_j71390946394547_2_alg».proof.Proof.MsgSpec
import proofs.«143102_j71390946394547_2_alg».proof.Proof.MsgArgs
import proofs.«143102_j71390946394547_2_alg».proof.Proof.MsgReal
import proofs.«143102_j71390946394547_2_alg».proof.Proof.RefValue
import proofs.«143102_j71390946394547_2_alg».proof.Proof.KernelTail
import Idealize.ShloMosaic.Adequacy
import Idealize.ShloMosaic.Init

noncomputable section

namespace Cert.Proof

open Idealize.ShloMosaic Idealize.SL.Sem Cert.Msg

theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal := fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- Memories that agree on the arguments hold the same argument arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.argsOf m' c = Cert.KernelIdeal.argsOf m c := by
  obtain ⟨h0, h1, h2, h3, h4, h5, h6, h7, h8, h9, h10, h11⟩ := h
  unfold Cert.ReferenceIdeal.argsOf Cert.KernelIdeal.argsOf
  rw [h0, h1, h2, h3, h4, h5, h6, h7, h8, h9, h10, h11]

/-- From finite arguments the kernel's program and the reference, run from memories that agree on the arguments,
    both end at the specification's two arrays. -/
theorem algebraic [Cert.KernelIdeal.Facts] [Cert.ReferenceIdeal.Facts] [hPre : Cert.Pre_finite_inputs.Facts] :
    Cert.algebraic_KernelIdeal_ReferenceIdeal := by
  intro m ρ m' ρ' hpre hagree
  have hA : ∀ c, (Cert.KernelIdeal.argsOf m c).Real := fun c => Cert.Msg.real_of_pre m hpre c
  refine ⟨fun c => dsOut (Cert.KernelIdeal.argsOf m c), fun c => dvOut (Cert.KernelIdeal.argsOf m c),
    Cert.KernelIdeal.Tail.run m ρ hA, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.ReferenceIdeal.RefValue.ds_eq (Cert.ReferenceIdeal.argsOf m' c)).trans
      (congrArg dsOut (args_agree m m' c (hagree c)))
  · exact (Cert.ReferenceIdeal.Read.val_main_v62_eq m' c).trans
      ((Cert.ReferenceIdeal.RefValue.dv_eq (Cert.ReferenceIdeal.argsOf m' c)).trans
        (congrArg dvOut (args_agree m m' c (hagree c))))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
